-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "half_over_t2" .f32 0x42480000#32 ((268435456 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x384 : Shape := ⟨2, ![512, 384]⟩
abbrev S512 : Shape := ⟨1, ![512]⟩
abbrev S_ : Shape := ⟨0, ![]⟩

class Facts : Prop where
  bcast_S_S512x384 : S_.BroadcastsInDim S512x384 (![] : Fin 0 → Fin S512x384.rank)
  reducesTo_S512x384_S_d0_1 : S512x384.ReducesTo [0, 1] S_
  h_S_ : 0 < S_.numel

variable [Facts]

def fn {F : FTy → Type} [FloatOps F] (main_arg0 : FVec F S512x384 .f32) (main_arg1 : IVec S512 32) : IVec S_ 1 :=
  let main_v0 : FVec F S512x384 .f32 := Host.absf main_arg0
  let main_cst : FVec F S_ .f32 := constant S_ .f32 0x7F800000#32
  let main_v1 : FVec F S512x384 .f32 := broadcastInDim S512x384 ![] bcast_S_S512x384 main_cst
  let main_v2 : IVec S512x384 1 := cmpf .olt main_v0 main_v1
  let main_c : IVec S_ 1 := constantI S_ 1 1#1
  let main_v3 : IVec S_ 1 := (fun x v => Host.reduce IntOp.andi x v reducesTo_S512x384_S_d0_1 h_S_) main_v2 main_c
  main_v3
-- ==== Kernel.lean ====
abbrev S512x384 : Shape := ⟨2, ![512, 384]⟩
abbrev S512 : Shape := ⟨1, ![512]⟩
abbrev S512x512 : Shape := ⟨2, ![512, 512]⟩
abbrev S384x512 : Shape := ⟨2, ![384, 512]⟩
abbrev S512x1 : Shape := ⟨2, ![512, 1]⟩
abbrev S1x512 : Shape := ⟨2, ![1, 512]⟩
abbrev S16x512 : Shape := ⟨2, ![16, 512]⟩
abbrev S16x1 : Shape := ⟨2, ![16, 1]⟩
abbrev S16x128 : Shape := ⟨2, ![16, 128]⟩
abbrev S16x512x1 : Shape := ⟨3, ![16, 512, 1]⟩
abbrev S16x1x128 : Shape := ⟨3, ![16, 1, 128]⟩
abbrev S16x512x128 : Shape := ⟨3, ![16, 512, 128]⟩
abbrev S16 : Shape := ⟨1, ![16]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S512x384, .f32⟩
  | .hbm, ⟨1, _⟩ => ⟨S512, .i32⟩
  | .hbm, ⟨2, _⟩ => ⟨S512x512, .f32⟩
  | .hbm, ⟨3, _⟩ => ⟨S512x1, .i32⟩
  | .hbm, ⟨4, _⟩ => ⟨S1x512, .i32⟩
  | .hbm, ⟨5, _⟩ => ⟨S512x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x384, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S16x1, .i32⟩
  | .local _ .vmem, ⟨5, _⟩ => ⟨S16x1, .i32⟩
  | .local _ .vmem, ⟨6, _⟩ => ⟨S1x512, .i32⟩
  | .local _ .vmem, ⟨7, _⟩ => ⟨S16x1, .f32⟩
  | .local _ .vmem, ⟨8, _⟩ => ⟨S16x1, .f32⟩
  | .local _ .vmem, ⟨9, _⟩ => ⟨S16x512, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![32, 4], ![false, false]⟩

def k1_mult1 (i : grid1.Coords) : BitVec 32 :=
  let arg1 : BitVec 32 := BitVec.ofNat 32 (i 1).val
  let c128_i32 : BitVec 32 := 128#32
  let v5 : BitVec 32 := Scalar.muli arg1 c128_i32
  v5
def k1_off1 (i : grid1.Coords) : Fin 2 → Nat :=
  let c0_2 : Index := 0#32
  let arg1 : BitVec 32 := BitVec.ofNat 32 (i 1).val
  let c128_i32 : BitVec 32 := 128#32
  let v5 : BitVec 32 := Scalar.muli arg1 c128_i32
  let v6 : BitVec 32 := v5
  let v7 : Index := Scalar.indexCast v6
  ![0, v7.toNat]
def k1_cond2 (i : grid1.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_10 : BitVec 32 := 0#32
  let v30 : BitVec 1 := Scalar.cmpi .ne v29 c0_i32_10
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x512 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S16x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x384_S512x384_0_0 : ∀ a, (![0, 0] : Fin 2 → Nat) a + S512x384.size a ≤ S512x384.size a
  h_S512x384 : 0 < S512x384.numel
  reduces_S512x384_S512 : S512x384.Reduces [1] S512
  transposes_S512x384_p1_0_S384x512 : S512x384.Transposes [1, 0] S384x512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  h_S16x128 : 0 < S16x128.numel
  shapeCasts_S16x128_S16x128 : S16x128.ShapeCasts S16x128
  shapeCasts_S16x512_S16x512x1 : S16x512.ShapeCasts S16x512x1
  shapeCasts_S16x128_S16x1x128 : S16x128.ShapeCasts S16x1x128
  broadcasts_S16x512x1_S16x512x128 : S16x512x1.Broadcasts S16x512x128
  broadcasts_S16x1x128_S16x512x128 : S16x1x128.Broadcasts S16x512x128
  reduces_S16x512x128_S16x512 : S16x512x128.Reduces [2] S16x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S16x512_d0_w32 : S16x512.Iotas .tc 32 [0]
  iota_S16x512_d1_w32 : S16x512.Iotas .tc 32 [1]
  broadcasts_S16x1_S16x512 : S16x1.Broadcasts S16x512
  broadcasts_S1x512_S16x512 : S1x512.Broadcasts S16x512
  natLt_1_32 : 1 < 32
  reduces_S16x512_S16 : S16x512.Reduces [1] S16
  shapeCasts_S16_S16x1 : S16.ShapeCasts S16x1
  reducesTo_S512x1_S_d0_1 : S512x1.ReducesTo [0, 1] S_
  h_S_ : 0 < S_.numel
  dot_S512x384_S384x512_S512x512_1_0_0_1_n_n_wf : DotDims.WF S512x384 S384x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x384.size a ≤ S512x384.size a
  hwx0_0 : ∀ i : grid0.Coords, EltTy.bits .f32 = 32 ∨ (Rect.block (s := S512x384) S512x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S16x128.size a ≤ S16x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S512x512.size a
  hwx1_0 : ∀ i : grid1.Coords, EltTy.bits .f32 = 32 ∨ (Rect.block (s := S512x512) S16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S512x1.size a
  hwx1_1 : ∀ i : grid1.Coords, EltTy.bits .i32 = 32 ∨ (Rect.block (s := S512x1) S16x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .i32 = 32 ∨ (Rect.block (s := S1x512) S1x512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S512x1.size a
  hwx1_3 : ∀ i : grid1.Coords, EltTy.bits .f32 = 32 ∨ (Rect.block (s := S512x1) S16x1.size (cc1_transform_3 i) (hinb1_3 i)).WholeWords (EltTy.packing .f32)

variable [Facts₀]

def dot_S512x384_S384x512_S512x512_1_0_0_1_n_n : DotDims S512x384 S384x512 S512x512 where
  lhsContracting := [1]
  rhsContracting := [0]
  lhsNonContracting := [0]
  rhsNonContracting := [1]
  lhsBatch := []
  rhsBatch := []
  wf := dot_S512x384_S384x512_S512x512_1_0_0_1_n_n_wf

abbrev win0_0 : Pipeline.Window sig grid0 :=
  Pipeline.Window.ofSpec (Memref.whole main_arg0) S512x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S16x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x384 : Shape := ⟨2, ![512, 384]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S384x512 : Shape := ⟨2, ![384, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 85
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512, .i32⟩
  | .hbm, ⟨2, _⟩ => ⟨S512x384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S384x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x1, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S512x512, .i1⟩
  | .hbm, ⟨32, _⟩ => ⟨S512x512, .i1⟩
  | .hbm, ⟨33, _⟩ => ⟨S_, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512x1, .f32⟩
  | .hbm, ⟨38, _⟩ => ⟨S512x1x512, .f32⟩
  | .hbm, ⟨39, _⟩ => ⟨S512x512x512, .f32⟩
  | .hbm, ⟨40, _⟩ => ⟨S512x512x512, .f32⟩
  | .hbm, ⟨41, _⟩ => ⟨S512x512x512, .f32⟩
  | .hbm, ⟨42, _⟩ => ⟨S_, .f32⟩
  | .hbm, ⟨43, _⟩ => ⟨S512x512x512, .f32⟩
  | .hbm, ⟨44, _⟩ => ⟨S512x512x512, .f32⟩
  | .hbm, ⟨45, _⟩ => ⟨S512x512x512, .f32⟩
  | .hbm, ⟨46, _⟩ => ⟨S512x512x512, .f32⟩
  | .hbm, ⟨47, _⟩ => ⟨S_, .f32⟩
  | .hbm, ⟨48, _⟩ => ⟨S512x512x512, .f32⟩
  | .hbm, ⟨49, _⟩ => ⟨S512x512x512, .f32⟩
  | .hbm, ⟨50, _⟩ => ⟨S_, .f32⟩
  | .hbm, ⟨51, _⟩ => ⟨S512x512x512, .f32⟩
  | .hbm, ⟨52, _⟩ => ⟨S512x512x512, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S_, .f32⟩
  | .hbm, ⟨60, _⟩ => ⟨S512x512, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S_, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S_, .f32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S_, .f32⟩
  | .hbm, ⟨76, _⟩ => ⟨S512, .f32⟩
  | .hbm, ⟨77, _⟩ => ⟨S512, .f32⟩
  | .hbm, ⟨78, _⟩ => ⟨S512, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  reducesTo_S512x384_S512_d1 : S512x384.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x384_S384x512_1_0 : S512x384.Transposes [1, 0] S384x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S512x512_d2 : S512x512x512.ReducesTo [2] S512x512
  reducesTo_S512x512_S512_d1 : S512x512.ReducesTo [1] S512
  bcast_S_S512 : S_.BroadcastsInDim S512 (![] : Fin 0 → Fin S512.rank)
  reducesTo_S512_S_d0 : S512.ReducesTo [0] S_
  dot_S512x384_S384x512_S512x512_1_0_0_1_n_n_wf : DotDims.WF S512x384 S384x512 S512x512 [1] [0] [0] [1] [] []

variable [Facts₀]

def dot_S512x384_S384x512_S512x512_1_0_0_1_n_n : DotDims S512x384 S384x512 S512x512 where
  lhsContracting := [1]
  rhsContracting := [0]
  lhsNonContracting := [0]
  rhsNonContracting := [1]
  lhsBatch := []
  rhsBatch := []
  wf := dot_S512x384_S384x512_S512x512_1_0_0_1_n_n_wf

class Facts : Prop extends Facts₀ where

variable [Facts]
-- ==== Proof.KDistBody.lean ====
/-
  The distance kernel (the first of the two launches) at its single grid point.

  Its body reads the whole 512 × 384 embedding block, and stores into the whole 512 × 512 output block the
  matrix of pairwise distances (the payload `k0_pay1` of the block it read). This module states what the
  output's staging buffer holds after the body, proves the body's triple on whole staging buffers, and
  packages it as the pipeline's proof data and body obligation — all as a function of `V`, the contents
  of the TensorCore's buffers when the launch is entered.
-/
import proofs.«172753_j3066606649434_2_alg».proof.Proof.Gen.Kernel.Launch
import proofs.«172753_j3066606649434_2_alg».proof.Proof.Gen.Kernel.Skeleton
import proofs.«172753_j3066606649434_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangle the body loads: the whole embedding block. -/
abbrev embRect : Rect S512x384 := Rect.unit (s := S512x384) ![0, 0] S512x384.size inb_S512x384_S512x384_0_0
/-- The rectangle the body stores: the whole distance block. -/
abbrev distRect : Rect S512x512 := Rect.unit (s := S512x512) ![0, 0] S512x512.size inb_S512x512_S512x512_0_0

/-- What the body leaves in the output's staging buffer when the input's holds `x`: its one store, of the
    distance payload of what it loaded, read back. -/
def distOut (x : Vec F S512x384 .f32) : Vec F S512x512 .f32 :=
  View.canon [⟨distRect, k0_pay1 (View.ld x embRect)⟩]

/-- That one store covers the output block. -/
theorem distOut_cover (p : Vec F S512x512 .f32) (y : S512x512.Idx) :
    ∃ pc ∈ ([⟨distRect, p⟩] : List (View.Piece (Elt F) S512x512 .f32)), y ∈ pc.1.set :=
  View.cover_of_tiled [⟨distRect, p⟩] S512x512.size (by rfl) y

set_option maxHeartbeats 1000000 in
/-- The body's triple: from the input's staging buffer at `x` and the output's at anything, the body runs to the
    end with the input's unchanged and the output's at `distOut x`. -/
theorem dist_body (c : Dev nD) (E : Set ℕ) (i : grid0.Coords)
    (arg1 : Memref sig .tc .vmem S512x384 .f32) (harg1 : arg1.IsWhole) (arg2 : Memref sig .tc .vmem S512x512 .f32) (harg2 : arg2.IsWhole)
    (x : Vec F S512x384 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (distOut x)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%fin, %hfin, Hin⟩, ⟨%dout, %fout, -, Hout⟩, Hk⟩
  subst hfin
  sl_exec
  sl_step
  iapply Hk
  isplitl [Hin]
  · iexists fin; isplitr
    · ipureintro; rfl
    · iexact Hin
  · iexists _; isplitr
    swap
    · iexact Hout
    · ipureintro; exact View.read_writes_eq_canon _ _ _ (distOut_cover _)

/-- The proof data of the distance launch on core `c`: its arrays as the launch finds them; after the body the
    input's buffer at its block and the output's at `distOut` of that block; the invariant holds only what the
    body never touches; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => distOut (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = distOut (iblk0 V c 0 t) := by dsimp only [dat0]

/-- The input's current staging buffer holds its block when the body is called. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The body obligation of the distance launch: at its point the body is called on the input's block and leaves
    what the proof data say; the invariant and the core's dues pass through. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)))
  simp only [before0_0]
  rw [show (dat0 V c).Φ t.succ = (dat0 V c).Φ t.castSucc from rfl,
    show (dat0 V c).owesAt () t.succ = (dat0 V c).owesAt () t.castSucc from rfl, after0_0, after0_1]
  iintro ⟨HΦ, Hdue, ⟨%d0, Hin⟩, ⟨%d1, Hout⟩⟩
  iapply (dist_body c Set.univ (grid0.coords t) _ _ _ _ (iblk0 V c 0 t) _)
  isplitl [Hin]; · iexact Hin
  isplitl [Hout]; · iexists _; iexact Hout
  iintro ⟨Hin, Hout⟩
  isplitl [HΦ]; · iexact HΦ
  isplitl [Hdue]; · iexact Hdue
  isplitl [Hin]; · iexact Hin
  iexact Hout

end Cert.Kernel.Hand

end
-- ==== Proof.KRankRuns.lean ====
/-
  The rank kernel, one grid point at a time: what its three control cases share.

  The grid is 32 × 4, the inner coordinate moving fastest, so point `t` has inner coordinate `t % 4`.
  The body branches twice on the inner coordinate: at `t % 4 = 0` it first stores zeros into the
  16 × 512 accumulator it carries from point to point; at every point it adds to the accumulator the
  partial sums of the point's 128 gallery columns; at `t % 4 = 3` it reads the finished accumulator,
  forms the row block's precisions and stores them into the output block. Elsewhere the output block
  is left as found and is not written back.

  This module fixes the two conditions in closed form over the 128 points, where the output window is
  idle and where it is written back, the staging memrefs of a point, the accumulator as a memref, and
  the region invariant with the accumulator named.
-/
import proofs.«172753_j3066606649434_2_alg».proof.Proof.Gen.Kernel.Launch
import proofs.«172753_j3066606649434_2_alg».proof.Proof.Gen.Kernel.Skeleton
import proofs.«172753_j3066606649434_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The inner coordinate is zero: the condition of the branch that zeroes the accumulator. -/
abbrev atRowStart (i : grid1.Coords) : Prop :=
  Scalar.cmpi .ne (Scalar.extui (Scalar.cmpi .eq (BitVec.ofNat 32 (i 1).val) 0#32)) 0#32 = 1#1

/-- The inner coordinate is three: the condition of the branch that stores the output block. -/
abbrev atRowEnd (i : grid1.Coords) : Prop := k1_cond2 i = 1#1

/-- The first condition holds exactly at the points ≡ 0 (mod 4). -/
theorem atRowStart_iff : ∀ t : Fin cfg1.N, atRowStart (grid1.coords t) ↔ t.val % 4 = 0 :=
  (by decide +kernel : ∀ t : Fin grid1.N, atRowStart (grid1.coords t) ↔ t.val % 4 = 0)

/-- The second condition holds exactly at the points ≡ 3 (mod 4). -/
theorem atRowEnd_iff : ∀ t : Fin cfg1.N, atRowEnd (grid1.coords t) ↔ t.val % 4 = 3 :=
  (by decide +kernel : ∀ t : Fin grid1.N, atRowEnd (grid1.coords t) ↔ t.val % 4 = 3)

/-! ## Where the windows are idle, and where the output is written back -/

/-- The three inputs are never idle. -/
theorem in0_live : ∀ t : Fin cfg1.N, cfg1.idle 0 (grid1.coords t) = false := by decide +kernel
theorem in1_live : ∀ t : Fin cfg1.N, cfg1.idle 1 (grid1.coords t) = false := by decide +kernel
theorem in2_live : ∀ t : Fin cfg1.N, cfg1.idle 2 (grid1.coords t) = false := by decide +kernel

/-- The output window is idle at the points whose inner coordinate is not three, -/
theorem out_idle : ∀ t : Fin cfg1.N, t.val % 4 ≠ 3 → cfg1.idle 3 (grid1.coords t) = true :=
  (by decide +kernel : ∀ t : Fin grid1.N, t.val % 4 ≠ 3 → cfg1.idle 3 (grid1.coords t) = true)

/-- live where it is three, -/
theorem out_live : ∀ t : Fin cfg1.N, t.val % 4 = 3 → cfg1.idle 3 (grid1.coords t) = false :=
  (by decide +kernel : ∀ t : Fin grid1.N, t.val % 4 = 3 → cfg1.idle 3 (grid1.coords t) = false)

/-- and not written back where it is idle. -/
theorem out_noFlush (t : Fin cfg1.N) (h : t.val % 4 ≠ 3) : (cfg1.win 3).flush t = false := by
  cases hf : (cfg1.win 3).flush t with
  | false => rfl
  | true => exact absurd ((flush1_3 t).mp hf) h

/-! ## The memrefs the body is called with at a point -/

/-- Each window's current staging memref at point `t`, and that it is a whole buffer. -/
abbrev ms1_0 (t : Fin cfg1.N) : Memref sig .tc .vmem S16x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1 .f32 := win1_3.stage (cfg1.slots t 3)
abbrev hs1_3 (t : Fin cfg1.N) : (ms1_3 t).IsWhole := hstage1_3 ((cfg1.slots t 3).cast nbuf1_3)

/-- The accumulator: a whole scoped buffer of the kernel's own, passed beside the windows. -/
abbrev scM1_0 : Memref sig .tc .vmem S16x512 .f32 := Memref.whole cc1_scratch0
/-- The accumulator as a view: its contents are stated through it. -/
abbrev VS1_0 : View sig .tc .vmem S16x512 .f32 := scM1_0.view
/-- One staging buffer of the output window, through which its contents are stated (a covered buffer reads the
    same through any view of the shape). -/
abbrev VO1_3 : View sig .tc .vmem S16x1 .f32 := (Memref.whole cc1_stg3_0 : Memref sig .tc .vmem S16x1 .f32).view

/-! ## The region invariant, conjunct by conjunct -/

/-- The two scoped buffers of the other kernel, each whole at some contents: the part of the invariant this
    kernel never touches. -/
abbrev otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f))

/-- The region's invariant: the other kernel's scoped buffers, the accumulator owned at some contents, and the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KRankRunA.lean ====
/-
  The rank kernel's body at a point whose inner coordinate is zero.

  The first branch is taken: zeros are stored over the whole accumulator, whatever it held. Then the
  point's 16 × 512 distance block and its 16 × 128 column slice are loaded, the accumulator (now zeros)
  is loaded, and the sum of the two is stored over the whole accumulator. The second branch is not
  taken: the output block is not touched, nor are the label blocks.

  So from the distance block owned at known contents and the accumulator owned at ANY contents the body
  runs to the distance block as it was and the accumulator with two whole-buffer writes made, the later
  one first in the list. The list is found by running the body.
-/
import proofs.«172753_j3066606649434_2_alg».proof.Proof.KRankRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the accumulator is reset: the writes it makes to the accumulator (last first),
    with the triple that says so. Only the two buffers the body touches here appear; the caller frames the rest. -/
noncomputable def runStart (c : Dev nD) (i : grid1.Coords)
    (arg2 : Memref sig .tc .vmem S16x512 .f32) (harg2 : arg2.IsWhole) (arg3 : Memref sig .tc .vmem S16x1 .i32) (harg3 : arg3.IsWhole)
    (arg4 : Memref sig .tc .vmem S1x512 .i32) (harg4 : arg4.IsWhole) (arg5 : Memref sig .tc .vmem S16x1 .f32) (harg5 : arg5.IsWhole)
    (arg6 : Memref sig .tc .vmem S16x512 .f32) (harg6 : arg6.IsWhole) (h0 : atRowStart i) (h3 : ¬atRowEnd i)
    (x0 : Vec F S16x512 .f32) :
    { LS : List (View.Piece (Elt F) S16x512 .f32) //
      ∀ (E : Set ℕ) (K : PUnit → sProp 𝕄),
        iprop(owns (c : Thread nD τ) arg2 fullShare x0 ∗ (∃ d, owns (c : Thread nD τ) arg6 fullShare d)
            ∗ (iprop(owns (c : Thread nD τ) arg2 fullShare x0
                ∗ (∃ f, arg6.view.loc (c : Thread nD τ) ↦[arg6.view.set]{fullShare} arg6.view.writes (Elt F) f LS)) -∗ K ⟨⟩))
          ⊢ wp frame (wpE (defs₀ (F := F)) Variants.none c none) E
              (cc1__rank_kernel i arg2 harg2 arg3 harg3 arg4 harg4 arg5 harg5 arg6 harg6) K } := by
  refine ⟨?_, fun E K => ?run⟩
  case run =>
    simp only [cc1__rank_kernel_eq_skeleton]; unfold cc1__rank_kernel_skel
    unfold owns
    iintro ⟨⟨%f0, %hf0, H0⟩, ⟨%ds, %fs, -, HS⟩, Hk⟩
    obtain rfl := harg2.eq_unread hf0
    sl_exec (disch := first | exact h0 | exact h3)
    sl_step
    iapply Hk
    isplitl [H0]
    · iexists _; isplitr; · ipureintro; exact harg2.read_unread _
      iexact H0
    iexists _; iexact HS

end Cert.Kernel.Hand

end
-- ==== Proof.KRankRunB.lean ====
/-
  The rank kernel's body at a point whose inner coordinate is one or two.

  Neither branch is taken. The point's distance block and its column slice are loaded, the accumulator
  is loaded at what the point before left in it, and their sum is stored over the whole accumulator.
  The output block and the label blocks are not touched.
-/
import proofs.«172753_j3066606649434_2_alg».proof.Proof.KRankRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point strictly inside a row of the grid: the one write it makes to the accumulator, with the
    triple that says so. The accumulator comes in at known contents `xs`. -/
noncomputable def runInner (c : Dev nD) (i : grid1.Coords)
    (arg2 : Memref sig .tc .vmem S16x512 .f32) (harg2 : arg2.IsWhole) (arg3 : Memref sig .tc .vmem S16x1 .i32) (harg3 : arg3.IsWhole)
    (arg4 : Memref sig .tc .vmem S1x512 .i32) (harg4 : arg4.IsWhole) (arg5 : Memref sig .tc .vmem S16x1 .f32) (harg5 : arg5.IsWhole)
    (arg6 : Memref sig .tc .vmem S16x512 .f32) (harg6 : arg6.IsWhole) (h0 : ¬atRowStart i) (h3 : ¬atRowEnd i)
    (x0 : Vec F S16x512 .f32) (xs : Vec F S16x512 .f32) :
    { LS : List (View.Piece (Elt F) S16x512 .f32) //
      ∀ (E : Set ℕ) (K : PUnit → sProp 𝕄),
        iprop(owns (c : Thread nD τ) arg2 fullShare x0 ∗ owns (c : Thread nD τ) arg6 fullShare xs
            ∗ (iprop(owns (c : Thread nD τ) arg2 fullShare x0
                ∗ (∃ f, arg6.view.loc (c : Thread nD τ) ↦[arg6.view.set]{fullShare} arg6.view.writes (Elt F) f LS)) -∗ K ⟨⟩))
          ⊢ wp frame (wpE (defs₀ (F := F)) Variants.none c none) E
              (cc1__rank_kernel i arg2 harg2 arg3 harg3 arg4 harg4 arg5 harg5 arg6 harg6) K } := by
  refine ⟨?_, fun E K => ?run⟩
  case run =>
    simp only [cc1__rank_kernel_eq_skeleton]; unfold cc1__rank_kernel_skel
    unfold owns
    iintro ⟨⟨%f0, %hf0, H0⟩, ⟨%fs, %hfs, HS⟩, Hk⟩
    obtain rfl := harg2.eq_unread hf0; obtain rfl := harg6.eq_unread hfs
    sl_exec (disch := first | exact h0 | exact h3)
    sl_step
    iapply Hk
    isplitl [H0]
    · iexists _; isplitr; · ipureintro; exact harg2.read_unread _
      iexact H0
    iexists _; iexact HS

end Cert.Kernel.Hand

end
-- ==== Proof.KRankRunC.lean ====
/-
  The rank kernel's body at a point whose inner coordinate is three.

  The first branch is not taken, the second is. As at an inner point the accumulator, coming in at what
  the point before left, receives the sum with this point's columns. Then the finished accumulator is
  read back, the two label blocks are loaded, and the row block's sixteen precisions are stored over the
  whole output block, whatever it held.
-/
import proofs.«172753_j3066606649434_2_alg».proof.Proof.KRankRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a row of the grid: the writes it makes to the output block and to the
    accumulator (last first), with the triple that says so. The three inputs come in at known contents, the
    accumulator at known contents `xs`, the output block at any. -/
noncomputable def runEnd (c : Dev nD) (i : grid1.Coords)
    (arg2 : Memref sig .tc .vmem S16x512 .f32) (harg2 : arg2.IsWhole) (arg3 : Memref sig .tc .vmem S16x1 .i32) (harg3 : arg3.IsWhole)
    (arg4 : Memref sig .tc .vmem S1x512 .i32) (harg4 : arg4.IsWhole) (arg5 : Memref sig .tc .vmem S16x1 .f32) (harg5 : arg5.IsWhole)
    (arg6 : Memref sig .tc .vmem S16x512 .f32) (harg6 : arg6.IsWhole) (h0 : ¬atRowStart i) (h3 : atRowEnd i)
    (x0 : Vec F S16x512 .f32) (x1 : Vec F S16x1 .i32) (x2 : Vec F S1x512 .i32) (xs : Vec F S16x512 .f32) :
    Σ' (LO : List (View.Piece (Elt F) S16x1 .f32)), { LS : List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E
              (cc1__rank_kernel i arg2 harg2 arg3 harg3 arg4 harg4 arg5 harg5 arg6 harg6) K } := by
  refine ⟨?_, ?_, fun E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact h0 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.KRankBody.lean ====
/-
  The rank kernel over its 128 grid points, at the buffer contents `V` the region is entered with.

  What each point leaves is a pair: the output block's staging buffer and the accumulator. It is defined
  by recursion on the point, through one function of the point and of what the accumulator held on entry:
  at a point ≡ 0 (mod 4) the entry contents are overwritten before they are read, so the pair does not
  depend on them; at the other points the accumulator continues from the point before. The output block
  is stored at the points ≡ 3 (mod 4) only; elsewhere its component is a placeholder nothing consults,
  since there the window is idle and is not written back.

  The region invariant carries the accumulator by name: before the first point it is the launch's
  invariant (accumulator at anything); before point `n + 1` the accumulator is owned at the second
  component of what point `n` left. A reset point forgets the name on entry. With it the body obligation
  holds at every point, by the three runs; the invariant starts as the launch's and gives it back at the
  end.

  Last, the three value equations: the found writes read back as the skeleton's payloads.
-/
import proofs.«172753_j3066606649434_2_alg».proof.Proof.KRankRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- The TensorCore's buffer contents when the region is entered.
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds the input's block at every point, fetched there or not: where it is
    not fetched the block index has not moved since the point before, and the body leaves inputs in place. Stated
    for any proof data over the arrays `V` whose body leaves the block. -/
theorem before_in0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before_in1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before_in2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-! ## The runs at a point, their covers, and what they leave -/

theorem notStart_of_ne (t : Fin cfg1.N) (h : t.val % 4 ≠ 0) : ¬atRowStart (grid1.coords t) :=
  fun hc => h ((atRowStart_iff t).mp hc)
theorem notEnd_of_ne (t : Fin cfg1.N) (h : t.val % 4 ≠ 3) : ¬atRowEnd (grid1.coords t) :=
  fun hc => h ((atRowEnd_iff t).mp hc)

/-- The run at a reset point `t`, on the point's memrefs and its distance block. -/
abbrev startRun (c : Dev nD) (t : Fin cfg1.N) (h0 : t.val % 4 = 0) :=
  runStart (F := F) c (grid1.coords t) (ms1_0 t) (hs1_0 t) (ms1_1 t) (hs1_1 t) (ms1_2 t) (hs1_2 t) (ms1_3 t) (hs1_3 t)
    scM1_0 (Memref.isWhole_whole _) ((atRowStart_iff t).mpr h0) (notEnd_of_ne t (by omega)) (iblk1 V c 0 t)

/-- The run at an inner point `t`, the accumulator coming in at `xs`. -/
abbrev innerRun (c : Dev nD) (t : Fin cfg1.N) (h0 : t.val % 4 ≠ 0) (h3 : t.val % 4 ≠ 3) (xs : Vec F S16x512 .f32) :=
  runInner (F := F) c (grid1.coords t) (ms1_0 t) (hs1_0 t) (ms1_1 t) (hs1_1 t) (ms1_2 t) (hs1_2 t) (ms1_3 t) (hs1_3 t)
    scM1_0 (Memref.isWhole_whole _) (notStart_of_ne t h0) (notEnd_of_ne t h3) (iblk1 V c 0 t) xs

/-- The run at a row's last point `t`, the accumulator coming in at `xs`. -/
abbrev endRun (c : Dev nD) (t : Fin cfg1.N) (h3 : t.val % 4 = 3) (xs : Vec F S16x512 .f32) :=
  runEnd (F := F) c (grid1.coords t) (ms1_0 t) (hs1_0 t) (ms1_1 t) (hs1_1 t) (ms1_2 t) (hs1_2 t) (ms1_3 t) (hs1_3 t)
    scM1_0 (Memref.isWhole_whole _) (notStart_of_ne t (by omega)) ((atRowEnd_iff t).mpr h3) (iblk1 V c 0 t) (iblk1 V c 1 t) (iblk1 V c 2 t) xs

/-- Each run's writes to the accumulator are whole-buffer writes, so they cover it; -/
theorem startCover (c : Dev nD) (t : Fin cfg1.N) (h0 : t.val % 4 = 0) (y : S16x512.Idx) :
    ∃ pc ∈ (startRun V c t h0).1, y ∈ pc.1.set :=
  View.cover_of_tiledL (startRun V c t h0).1 S16x512.size (by sl_kernel_rfl) y

theorem innerCover (c : Dev nD) (t : Fin cfg1.N) (h0 : t.val % 4 ≠ 0) (h3 : t.val % 4 ≠ 3) (xs : Vec F S16x512 .f32) (y : S16x512.Idx) :
    ∃ pc ∈ (innerRun V c t h0 h3 xs).1, y ∈ pc.1.set :=
  View.cover_of_tiledL (innerRun V c t h0 h3 xs).1 S16x512.size (by sl_kernel_rfl) y

theorem endCoverAcc (c : Dev nD) (t : Fin cfg1.N) (h3 : t.val % 4 = 3) (xs : Vec F S16x512 .f32) (y : S16x512.Idx) :
    ∃ pc ∈ (endRun V c t h3 xs).2.1, y ∈ pc.1.set :=
  View.cover_of_tiledL (endRun V c t h3 xs).2.1 S16x512.size (by sl_kernel_rfl) y

/-- and the last point's write to the output block covers the block. -/
theorem endCoverOut (c : Dev nD) (t : Fin cfg1.N) (h3 : t.val % 4 = 3) (xs : Vec F S16x512 .f32) (y : S16x1.Idx) :
    ∃ pc ∈ (endRun V c t h3 xs).1, y ∈ pc.1.set :=
  View.cover_of_tiledL (endRun V c t h3 xs).1 S16x1.size (by sl_kernel_rfl) y

/-- What each run leaves in the accumulator: its writes read back (over anything: they cover). -/
def startAcc (c : Dev nD) (t : Fin cfg1.N) (h0 : t.val % 4 = 0) : Vec F S16x512 .f32 :=
  VS1_0.read (Elt F) (VS1_0.writes (Elt F) VS1_0.junk (startRun V c t h0).1)
def innerAcc (c : Dev nD) (t : Fin cfg1.N) (h0 : t.val % 4 ≠ 0) (h3 : t.val % 4 ≠ 3) (xs : Vec F S16x512 .f32) : Vec F S16x512 .f32 :=
  VS1_0.read (Elt F) (VS1_0.writes (Elt F) VS1_0.junk (innerRun V c t h0 h3 xs).1)
def endAcc (c : Dev nD) (t : Fin cfg1.N) (h3 : t.val % 4 = 3) (xs : Vec F S16x512 .f32) : Vec F S16x512 .f32 :=
  VS1_0.read (Elt F) (VS1_0.writes (Elt F) VS1_0.junk (endRun V c t h3 xs).2.1)
/-- What the last point of a row leaves in the output block. -/
def endOut (c : Dev nD) (t : Fin cfg1.N) (h3 : t.val % 4 = 3) (xs : Vec F S16x512 .f32) : Vec F S16x1 .f32 :=
  VO1_3.read (Elt F) (VO1_3.writes (Elt F) VO1_3.junk (endRun V c t h3 xs).1)
/-- The output component at a point that stores nothing into the block: a placeholder. Nothing reads it — there
    the window is idle, is not written back, and the next point is handed the buffer as this one found it. -/
def idleOut : Vec F S16x1 .f32 := VO1_3.read (Elt F) VO1_3.junk

/-! ## What the output block and the accumulator hold after each point -/

/-- One point's effect on the pair, given what the accumulator held on entry (`prev`; unread at a reset point). -/
def pointOut (c : Dev nD) (t : Fin cfg1.N) (prev : Vec F S16x512 .f32) : Vec F S16x1 .f32 × Vec F S16x512 .f32 :=
  if h0 : t.val % 4 = 0 then (idleOut, startAcc V c t h0)
  else if h3 : t.val % 4 = 3 then (endOut V c t h3 prev, endAcc V c t h3 prev)
  else (idleOut, innerAcc V c t h0 h3 prev)

/-- After point `n`: (the output window's staging buffer, the accumulator). -/
def outsAt1 (c : Dev nD) : (n : ℕ) → n < cfg1.N → Vec F S16x1 .f32 × Vec F S16x512 .f32
  | 0, hn => pointOut V c ⟨0, hn⟩ (VS1_0.read (Elt F) VS1_0.junk)
  | n + 1, hn => pointOut V c ⟨n + 1, hn⟩ (outsAt1 c n (Nat.lt_of_succ_lt hn)).2

/-- At a reset point the pair is the reset run's, whatever came before. -/
theorem outsAt1_start (c : Dev nD) (t : Fin cfg1.N) (h0 : t.val % 4 = 0) :
    outsAt1 V c t.val t.isLt = (idleOut, startAcc V c t h0) := by
  obtain ⟨n, hn⟩ := t
  cases n with
  | zero => show pointOut V c ⟨0, hn⟩ _ = _; exact dif_pos h0
  | succ n => show pointOut V c ⟨n + 1, hn⟩ _ = _; exact dif_pos h0

/-- At an inner point the accumulator continues from the point before. -/
theorem outsAt1_inner (c : Dev nD) (t : Fin cfg1.N) (h0 : t.val % 4 ≠ 0) (h3 : t.val % 4 ≠ 3) :
    outsAt1 V c t.val t.isLt
      = (idleOut, innerAcc V c t h0 h3 (outsAt1 V c (t.val - 1) (Nat.lt_of_le_of_lt (Nat.sub_le _ _) t.isLt)).2) := by
  obtain ⟨n, hn⟩ := t
  cases n with
  | zero => exact absurd (Nat.zero_mod _) h0
  | succ n => show pointOut V c ⟨n + 1, hn⟩ _ = _; exact (dif_neg h0).trans (dif_neg h3)

/-- At a row's last point too, and the output block is stored. -/
theorem outsAt1_end (c : Dev nD) (t : Fin cfg1.N) (h3 : t.val % 4 = 3) :
    outsAt1 V c t.val t.isLt
      = (endOut V c t h3 (outsAt1 V c (t.val - 1) (Nat.lt_of_le_of_lt (Nat.sub_le _ _) t.isLt)).2,
         endAcc V c t h3 (outsAt1 V c (t.val - 1) (Nat.lt_of_le_of_lt (Nat.sub_le _ _) t.isLt)).2) := by
  obtain ⟨n, hn⟩ := t
  cases n with
  | zero => exact absurd (show 0 % 4 = 3 from h3) (by decide)
  | succ n =>
    show pointOut V c ⟨n + 1, hn⟩ _ = _
    exact (dif_neg (show ¬(n + 1) % 4 = 0 by have : (n + 1) % 4 = 3 := h3; omega)).trans (dif_pos h3)

/-! ## The invariant, with the accumulator named -/

/-- Before point `n`: at `n = 0` the launch's invariant; afterwards the same with the accumulator owned at what
    point `n - 1` left in it. -/
def PhiS (c : Dev nD) : (n : ℕ) → n ≤ cfg1.N → sProp 𝕄
  | 0, _ => Pipeline.ΦA spec1 c
  | n + 1, hn =>
    iprop(iprop((∃ f : Buf (Elt F) ((c : Thread nD τ).loc cc0_stg0_0), ((c : Thread nD τ).loc cc0_stg0_0) ↦{fullShare} f)
        ∗ (∃ f : Buf (Elt F) ((c : Thread nD τ).loc cc0_stg1_0), ((c : Thread nD τ).loc cc0_stg1_0) ↦{fullShare} f)
        ∗ owns (c : Thread nD τ) scM1_0 fullShare (outsAt1 V c n hn).2) ∗ (∃ r, prngReg c r))

theorem PhiS_succ (c : Dev nD) (n : ℕ) (hn : n < cfg1.N) :
    PhiS V c (n + 1) hn
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg1_0), ((c : Thread nD τ).loc cc0_stg1_0) ↦{fullShare} f)
        ∗ owns (c : Thread nD τ) scM1_0 fullShare (outsAt1 V c n hn).2) ∗ (∃ r, prngReg c r)) := rfl

theorem PhiS_pos (c : Dev nD) (n : ℕ) (h : n ≤ cfg1.N) (hz : n ≠ 0) :
    PhiS V c n h
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg1_0), ((c : Thread nD τ).loc cc0_stg1_0) ↦{fullShare} f)
        ∗ owns (c : Thread nD τ) scM1_0 fullShare (outsAt1 V c (n - 1) (by omega)).2) ∗ (∃ r, prngReg c r)) := by
  cases n with
  | zero => exact absurd rfl hz
  | succ n => rfl

/-- Forgetting the accumulator's name gives the launch's invariant back, before any point. -/
theorem PhiS_forget (c : Dev nD) (n : ℕ) (h : n ≤ cfg1.N) : PhiS V c n h ⊢ Pipeline.ΦA spec1 c := by
  cases n with
  | zero => exact Idealize.SL.BI.Entails.refl _
  | succ n =>
    rw [PhiS_succ, PhiA1_eq]
    iintro ⟨⟨HR0, HR1, HS⟩, Hg⟩
    isplitl [HR0 HR1 HS]
    · isplitl [HR0]; · iexact HR0
      isplitl [HR1]; · iexact HR1
      iexists _; iexact HS
    iexact Hg

/-- The same, conjunct by conjunct. -/
theorem PhiS_forget' (c : Dev nD) (n : ℕ) (h : n ≤ cfg1.N) :
    PhiS V c n h ⊢ iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1_0 fullShare d)) ∗ (∃ r, prngReg c r)) := by
  rw [← PhiA1_eq]; exact PhiS_forget V c n h

/-! ## The pipeline's proof data -/

/-- The region's proof data on core `c`: the arrays as found; after the body each input's buffer at its block, the
    output's at the first component of `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before_in0 V (dat1 V c) (A_eq1 V c 0) (after1_0 V c) t d
theorem before1_1 (c : Dev nD) (t : Fin cfg1.N) (d) : (dat1 V c).before 1 t d = iblk1 V c 1 t :=
  before_in1 V (dat1 V c) (A_eq1 V c 1) (after1_1 V c) t d
theorem before1_2 (c : Dev nD) (t : Fin cfg1.N) (d) : (dat1 V c).before 2 t d = iblk1 V c 2 t :=
  before_in2 V (dat1 V c) (A_eq1 V c 2) (after1_2 V c) t d

theorem Phi_castSucc (c : Dev nD) (t : Fin cfg1.N) :
    (dat1 V c).Φ t.castSucc = PhiS V c t.val (Nat.le_of_lt t.isLt) := rfl

/-! ## The body obligation -/

/-- What the body is handed at point `t`: the invariant, what the core owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The inputs are live everywhere: the body hands each back at its block. -/
theorem leaves_in0 (c : Dev nD) (t : Fin cfg1.N) :
    (dat1 V c).leavesExact 0 t = owns (c : Thread nD τ) (ms1_0 t) fullShare (iblk1 V c 0 t) := by
  unfold Dat.leavesExact; rw [in0_live t, after1_0]
theorem leaves_in1 (c : Dev nD) (t : Fin cfg1.N) :
    (dat1 V c).leavesExact 1 t = owns (c : Thread nD τ) (ms1_1 t) fullShare (iblk1 V c 1 t) := by
  unfold Dat.leavesExact; rw [in1_live t, after1_1]
theorem leaves_in2 (c : Dev nD) (t : Fin cfg1.N) :
    (dat1 V c).leavesExact 2 t = owns (c : Thread nD τ) (ms1_2 t) fullShare (iblk1 V c 2 t) := by
  unfold Dat.leavesExact; rw [in2_live t, after1_2]
/-- The output is live at a row's last point: the body hands it back at what it stored. -/
theorem leaves_out_end (c : Dev nD) (t : Fin cfg1.N) (h3 : t.val % 4 = 3) :
    (dat1 V c).leavesExact 3 t = owns (c : Thread nD τ) (ms1_3 t) fullShare ((outsAt1 V c t.val t.isLt).1) := by
  unfold Dat.leavesExact; rw [out_live t h3, after1_3]

set_option maxHeartbeats 4000000 in
/-- The body at any point, by the point's residue mod 4. At a reset point the invariant's accumulator, named or
    not, is handed over at anything; at the other points (never the first) it is handed over at what the point
    before left. Every run gives the accumulator back with covering writes made, which is owning it at the
    point's second component. The output block is given back as found except at a row's last point, where it
    comes back with one covering write made. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves_in0, leaves_in1, leaves_in2, Phi_castSucc]
  by_cases h0 : t.val % 4 = 0
  · have h3 : t.val % 4 ≠ 3 := by omega
    rw [Dat.leavesExact_idle (dat1 V c) 3 t (out_idle t h3) (out_noFlush t h3), outsAt1_start V c t h0]
    unfold startAcc; (try dsimp only)
    iintro ⟨HP, Ho, ⟨%d0, H0⟩, ⟨%d1, H1⟩, ⟨%d2, H2⟩, ⟨%d3, H3⟩⟩
    ihave HA := (PhiS_forget' V c t.val _) $$ HP
    icases HA with ⟨⟨HR0, HR1, HS⟩, Hg⟩
    iapply ((startRun V c t h0).2 Set.univ _)
    isplitl [H0]; · iexact H0
    isplitl [HS]; · iexact HS
    iintro ⟨H0, ⟨%es, HS⟩⟩
    isplitl [HR0 HR1 HS Hg]
    · isplitl [HR0 HR1 HS]
      · isplitl [HR0]; · iexact HR0
        isplitl [HR1]; · iexact HR1
        unfold owns; iexists _; isplitr
        swap; · iexact HS
        ipureintro; exact View.read_writes_of_cover _ _ _ _ _ (startCover V c t h0)
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz]
    by_cases h3 : t.val % 4 = 3
    · rw [leaves_out_end V c t h3, outsAt1_end V c t h3]
      unfold endOut endAcc; (try dsimp only)
      iintro ⟨⟨⟨HR0, HR1, HS⟩, Hg⟩, Ho, ⟨%d0, H0⟩, ⟨%d1, H1⟩, ⟨%d2, H2⟩, ⟨%d3, H3⟩⟩
      iapply ((endRun V c t h3 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR0 HR1 HS Hg]
      · isplitl [HR0 HR1 HS]
        · isplitl [HR0]; · iexact HR0
          isplitl [HR1]; · iexact HR1
          unfold owns; iexists _; isplitr
          swap; · iexact HS
          ipureintro; exact View.read_writes_of_cover _ _ _ _ _ (endCoverAcc V c t h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (endCoverOut V c t h3 _)
    · rw [Dat.leavesExact_idle (dat1 V c) 3 t (out_idle t h3) (out_noFlush t h3), outsAt1_inner V c t h0 h3]
      unfold innerAcc; (try dsimp only)
      iintro ⟨⟨⟨HR0, HR1, HS⟩, Hg⟩, Ho, ⟨%d0, H0⟩, ⟨%d1, H1⟩, ⟨%d2, H2⟩, ⟨%d3, H3⟩⟩
      iapply ((innerRun V c t h0 h3 _).2 Set.univ _)
      isplitl [H0]; · iexact H0
      isplitl [HS]; · iexact HS
      iintro ⟨H0, ⟨%es, HS⟩⟩
      isplitl [HR0 HR1 HS Hg]
      · isplitl [HR0 HR1 HS]
        · isplitl [HR0]; · iexact HR0
          isplitl [HR1]; · iexact HR1
          unfold owns; iexists _; isplitr
          swap; · iexact HS
          ipureintro; exact View.read_writes_of_cover _ _ _ _ _ (innerCover V c t h0 h3 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The launch's invariant is the invariant before the first point. -/
theorem hin1 (c : Dev nD) : Pipeline.ΦA spec1 c ⊢ (dat1 V c).Φ 0 := by
  show Pipeline.ΦA spec1 c ⊢ PhiS V c 0 (Nat.zero_le _)
  exact Idealize.SL.BI.Entails.refl _

/-- After the last point the invariant gives the launch's back: the accumulator's name is forgotten. -/
theorem hout1 (c : Dev nD) : (dat1 V c).Φ (Fin.last cfg1.N) ⊢ Pipeline.ΦA spec1 c := by
  show PhiS V c cfg1.N (Nat.le_refl _) ⊢ _
  exact PhiS_forget V c _ _

end

end Cert.Kernel.Hand

end
-- ==== Proof.KTwoLaunches.lean ====
/-
  @main of the kernel program as four segments — the distance launch, the reshapes of the labels, the rank launch,
  the mean — and its run: every weakly fair execution terminates without a fault, and the final contents of every
  unscoped buffer are the fold `B4` of the launch memory through the four segments. A launch's segment record says
  how its windows' arrays leave the thread's buffers on entry and return on exit, and how the generator register
  passes through the launch's invariant; the per-point halves are DistBody (one point) and RankBody (a 32 × 4 grid
  with an accumulator carried along each row of four points). The frame claim — both arguments end as launched —
  is read off the fold.
-/
import proofs.«172753_j3066606649434_2_alg».proof.Proof.KDistBody
import proofs.«172753_j3066606649434_2_alg».proof.Proof.KRankBody
import proofs.«172753_j3066606649434_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary of @main

@main is: the distance launch; two reshapes of the labels; the rank launch; the mean and `1 − ·`.
`B0 … B4` are core `c`'s buffer contents at the five boundaries, each from the one before: a launch replaces its
windows' arrays by what its write-backs leave, a host stretch applies its operations. -/

/-- At launch. -/
abbrev B0 : Dev nD → Valuation τ sig (Elt F) := fun c b => (s₀ m ρ).mem ((c : Dev nD), b)
abbrev U0 : (c : Dev nD) → (b : Ref sig .tc) → Buf (Elt F) ((c : Thread nD τ).loc b) := fun c b => B0 m ρ c b
/-- After the distance launch. -/
def B1 (c : Dev nD) : Valuation τ sig (Elt F) :=
  Pipeline.withArrays spec0 c (B0 m ρ c) fun w => (dat0 (U0 m ρ) c).arrAt w cfg0.N
theorem B1_arr (c : Dev nD) (w : Fin cfg0.W) :
    B1 m ρ c (Proc.devRef .tc (Pipeline.arrRef spec0 w)) = (dat0 (U0 m ρ) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev U1 : (c : Dev nD) → (b : Ref sig .tc) → Buf (Elt F) ((c : Thread nD τ).loc b) := fun c b => B1 m ρ c b
/-- After the reshapes of the labels. -/
abbrev B2 : Dev nD → Valuation τ sig (Elt F) := fun c => StableHlo.after hostOps1 (B1 m ρ c)
abbrev U2 : (c : Dev nD) → (b : Ref sig .tc) → Buf (Elt F) ((c : Thread nD τ).loc b) := fun c b => B2 m ρ c b
/-- After the rank launch. -/
def B3 (c : Dev nD) : Valuation τ sig (Elt F) :=
  Pipeline.withArrays spec1 c (B2 m ρ c) fun w => (dat1 (U2 m ρ) c).arrAt w cfg1.N
theorem B3_arr (c : Dev nD) (w : Fin cfg1.W) :
    B3 m ρ c (Proc.devRef .tc (Pipeline.arrRef spec1 w)) = (dat1 (U2 m ρ) c).arrAt w cfg1.N := by
  unfold B3; exact Pipeline.withArrays_arr spec1 launch1.win.arr_inj c _ _ w
theorem B3_other (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev U3 : (c : Dev nD) → (b : Ref sig .tc) → Buf (Elt F) ((c : Thread nD τ).loc b) := fun c b => B3 m ρ c b
/-- At the end. -/
abbrev B4 : Dev nD → Valuation τ sig (Elt F) := fun c => StableHlo.after hostOps2 (B3 m ρ c)

/-! ## The two launches as segments of @main -/

/-- No launch has a prefetched table. -/
abbrev adm : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What every segment carries beside the buffers: the generator register at some state, and the core owing nothing. -/
abbrev Beside (c : Dev nD) : sProp 𝕄 := iprop((∃ r, prngReg c r) ∗ ∃ W, owes (c : Thread nD τ) (0 : CellTallies nD τ sig Unit) W)
/-- A stretch of host operations as a segment, entered from the contents `B`. -/
abbrev hostSeg (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A launch's arrays leave the thread's buffers on entry and return at the launch's final contents on exit; the
    generator register goes through the launch's invariant; nothing is owed. The four entailments are the same for
    both launches up to the invariant's ends, which are passed in. -/
theorem entry_owes (c : Dev nD) :
    (iprop(∃ W, owes (c : Thread nD τ) (0 : CellTallies nD τ sig Unit) W) : sProp 𝕄) ⊢
      iprop(∃ W, ⌜∀ (_ : GSem nD τ sig) (_ : Unit), True ∨ False⌝ ∗ owes (c : Thread nD τ) (0 : CellTallies nD τ sig Unit) W) := by
  iintro ⟨%W, H⟩; iexists W; isplitr
  · ipureintro; exact fun _ _ => Or.inl trivial
  · iexact H

set_option backward.isDefEq.respectTransparency.types false in
/-- The distance launch, entered from `B0` and left at `B1`. -/
def launchDist : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (B0 m ρ c) ∗ Beside c)
  post c := iprop(StableHlo.held (c : Thread nD τ) (Pipeline.ucRefs τ sig) (B1 m ρ c) ∗ Beside c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      · iexact Hdue
    isplitl [Hreg]; · iexact Hreg
    iexact Hrest
  hin c := by
    rw [show (pdats m ρ 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m ρ 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (fun w => (B1_arr m ρ c w).symm)
      (fun b hb => B1_other m ρ c b fun w e => hb (Finset.mem_image.mpr ⟨w, Finset.mem_univ _, e⟩))
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

/-- What the rank launch is handed at its entry makes the invariant its first point starts from: the buffers no
    window stages at any contents, and the generator register. -/
theorem rank_inv_in (c : Dev nD) :
    (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
  unfold Pipeline.ΦA
  iintro ⟨Hreg, -, Hsc⟩
  isplitl [Hsc]; · iexact Hsc
  iexact Hreg
/-- And that invariant gives them back at its exit; the kernel has no semaphore of its own. -/
theorem rank_inv_out (c : Dev nD) :
    (Pipeline.ΦA spec1 c : sProp 𝕄) ⊢ iprop((∃ r, prngReg c r)
      ∗ Pipeline.ownSems0 (Ix := Unit) (Name := ℕ) (U := UR sig nD τ) (Lvl := ℕ) (Val := Elt F) (τ := τ) (fun k : PEmpty => k.elim) c
      ∗ Pipeline.scopedRest spec1 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- The rank launch, entered from `B2` and left at `B3`. Its invariant's ends are the scratch-carrying one's:
    it starts from, and gives back, the buffers no window stages at any contents and the generator register. -/
def launchRank : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (B2 m ρ c) ∗ Beside c)
  post c := iprop(StableHlo.held (c : Thread nD τ) (Pipeline.ucRefs τ sig) (B3 m ρ c) ∗ Beside c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      · iexact Hdue
    isplitl [Hreg]; · iexact Hreg
    iexact Hrest
  hin c := (rank_inv_in c).trans (hin1 (U2 m ρ) c)
  hout c := (hout1 (U2 m ρ) c).trans (rank_inv_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (fun w => (B3_arr m ρ c w).symm)
      (fun b hb => B3_other m ρ c b fun w e => hb (Finset.mem_image.mpr ⟨w, Finset.mem_univ _, e⟩))
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

/-- @main, segment by segment. -/
abbrev segs : List (Pipeline.Seg (pcfgs (F := F)) adm (pdats m ρ) () defs₀ 𝒱₀ L lv) :=
  [ .region (launchDist m ρ),
    .host (hostSeg hostOps1 hostOps1_sub hostOps1_fresh (B1 m ρ)),
    .region (launchRank m ρ),
    .host (hostSeg hostOps2 hostOps2_sub hostOps2_fresh (B3 m ρ)) ]
theorem main_is_segs (c : Dev nD) : main (F := F) c = Pipeline.Seg.run (segs m ρ) := (main_chain c).trans (by chain_rfl)

set_option backward.isDefEq.respectTransparency.types false in
/-- THE RUN. From any memory with every counter at zero, every weakly fair execution of @main terminates without a
    fault, and in the final state every unscoped buffer of core `c` holds `B4 m ρ c` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c))
    (Tₙ := fun c => iprop(StableHlo.held (c : Thread nD τ) (Pipeline.ucRefs τ sig) (B4 m ρ c) ∗ ∃ r, prngReg c r))
    (hch := ⟨fun _ => .rfl, fun _ => .rfl, fun _ => .rfl, fun _ => .rfl, fun c => by
      show (iprop(StableHlo.held (c : Thread nD τ) (Pipeline.ucRefs τ sig) (B4 m ρ c) ∗ Beside c) : sProp 𝕄)
        ⊢ iprop((StableHlo.held (c : Thread nD τ) (Pipeline.ucRefs τ sig) (B4 m ρ c) ∗ ∃ r, prngReg c r)
            ∗ ∃ W, owes (c : Thread nD τ) (0 : CellTallies nD τ sig Unit) W)
      iintro ⟨Hh, Hreg, Hdue⟩
      isplitl [Hh Hreg]
      · isplitl [Hh]; · iexact Hh
        iexact Hreg
      · iexact Hdue⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, Hdue, -, Hreg, -⟩, -⟩
      imodintro
      isplitl [Hh]; · iexact Hh
      isplitl [Hreg]; · iexists _; iexact Hreg
      iexists ∅; iexact Hdue)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-! ## The arguments end as launched -/

/-- The embedding array: the distance launch only reads it, nothing else touches it. -/
theorem B4_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_writes_sub hostOps2 _ hostOps2_writes (by decide)
    _ = B2 m ρ c (Proc.devRef .tc main_arg0) := B3_other m ρ c main_arg0 (by decide)
    _ = B1 m ρ c (Proc.devRef .tc main_arg0) := StableHlo.after_of_writes_sub hostOps1 _ hostOps1_writes (by decide)
    _ = B0 m ρ c (Proc.devRef .tc main_arg0) := (B1_arr m ρ c 0).trans (((dat0 (U0 m ρ) c).arrAt_in 0 rfl _).trans (A_eq0 (U0 m ρ) c 0))
    _ = m ((c : Thread nD τ).loc main_arg0) := rfl
/-- The labels: no launch stages them, no operation writes them. -/
theorem B4_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_writes_sub hostOps2 _ hostOps2_writes (by decide)
    _ = B2 m ρ c (Proc.devRef .tc main_arg1) := B3_other m ρ c main_arg1 (by decide)
    _ = B1 m ρ c (Proc.devRef .tc main_arg1) := StableHlo.after_of_writes_sub hostOps1 _ hostOps1_writes (by decide)
    _ = B0 m ρ c (Proc.devRef .tc main_arg1) := B1_other m ρ c main_arg1 (by decide)
    _ = m ((c : Thread nD τ).loc main_arg1) := rfl

/-- The frame claim at any instance: @main runs to the end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B4_arg0 m ρ c),
     (h c _ (mem_uc main_arg1 (by decide))).trans (B4_arg1 m ρ c)⟩) (run_all m ρ)

end Cert.Kernel.Hand

end
-- ==== Proof.DistBody.lean ====
/-
  The distance kernel (the first of the two launches) at its single grid point.

  Its body reads the whole 512 × 384 embedding block, and stores into the whole 512 × 512 output block the
  matrix of pairwise distances (the payload `k0_pay1` of the block it read). This module states what the
  output's staging buffer holds after the body, proves the body's triple on whole staging buffers, and
  packages it as the pipeline's proof data and body obligation — all as a function of `V`, the contents
  of the TensorCore's buffers when the launch is entered.
-/
import proofs.«172753_j3066606649434_2_alg».proof.Proof.Gen.KernelIdeal.Launch
import proofs.«172753_j3066606649434_2_alg».proof.Proof.Gen.KernelIdeal.Skeleton
import proofs.«172753_j3066606649434_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangle the body loads: the whole embedding block. -/
abbrev embRect : Rect S512x384 := Rect.unit (s := S512x384) ![0, 0] S512x384.size inb_S512x384_S512x384_0_0
/-- The rectangle the body stores: the whole distance block. -/
abbrev distRect : Rect S512x512 := Rect.unit (s := S512x512) ![0, 0] S512x512.size inb_S512x512_S512x512_0_0

/-- What the body leaves in the output's staging buffer when the input's holds `x`: its one store, of the
    distance payload of what it loaded, read back. -/
def distOut (x : Vec F S512x384 .f32) : Vec F S512x512 .f32 :=
  View.canon [⟨distRect, k0_pay1 (View.ld x embRect)⟩]

/-- That one store covers the output block. -/
theorem distOut_cover (p : Vec F S512x512 .f32) (y : S512x512.Idx) :
    ∃ pc ∈ ([⟨distRect, p⟩] : List (View.Piece (Elt F) S512x512 .f32)), y ∈ pc.1.set :=
  View.cover_of_tiled [⟨distRect, p⟩] S512x512.size (by rfl) y

set_option maxHeartbeats 1000000 in
/-- The body's triple: from the input's staging buffer at `x` and the output's at anything, the body runs to the
    end with the input's unchanged and the output's at `distOut x`. -/
theorem dist_body (c : Dev nD) (E : Set ℕ) (i : grid0.Coords)
    (arg1 : Memref sig .tc .vmem S512x384 .f32) (harg1 : arg1.IsWhole) (arg2 : Memref sig .tc .vmem S512x512 .f32) (harg2 : arg2.IsWhole)
    (x : Vec F S512x384 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (distOut x)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%fin, %hfin, Hin⟩, ⟨%dout, %fout, -, Hout⟩, Hk⟩
  subst hfin
  sl_exec
  sl_step
  iapply Hk
  isplitl [Hin]
  · iexists fin; isplitr
    · ipureintro; rfl
    · iexact Hin
  · iexists _; isplitr
    swap
    · iexact Hout
    · ipureintro; exact View.read_writes_eq_canon _ _ _ (distOut_cover _)

/-- The proof data of the distance launch on core `c`: its arrays as the launch finds them; after the body the
    input's buffer at its block and the output's at `distOut` of that block; the invariant holds only what the
    body never touches; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => distOut (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = distOut (iblk0 V c 0 t) := by dsimp only [dat0]

/-- The input's current staging buffer holds its block when the body is called. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The body obligation of the distance launch: at its point the body is called on the input's block and leaves
    what the proof data say; the invariant and the core's dues pass through. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)))
  simp only [before0_0]
  rw [show (dat0 V c).Φ t.succ = (dat0 V c).Φ t.castSucc from rfl,
    show (dat0 V c).owesAt () t.succ = (dat0 V c).owesAt () t.castSucc from rfl, after0_0, after0_1]
  iintro ⟨HΦ, Hdue, ⟨%d0, Hin⟩, ⟨%d1, Hout⟩⟩
  iapply (dist_body c Set.univ (grid0.coords t) _ _ _ _ (iblk0 V c 0 t) _)
  isplitl [Hin]; · iexact Hin
  isplitl [Hout]; · iexists _; iexact Hout
  iintro ⟨Hin, Hout⟩
  isplitl [HΦ]; · iexact HΦ
  isplitl [Hdue]; · iexact Hdue
  isplitl [Hin]; · iexact Hin
  iexact Hout

end Cert.KernelIdeal.Hand

end
-- ==== Proof.RankRuns.lean ====
/-
  The rank kernel, one grid point at a time: what its three control cases share.

  The grid is 32 × 4, the inner coordinate moving fastest, so point `t` has inner coordinate `t % 4`.
  The body branches twice on the inner coordinate: at `t % 4 = 0` it first stores zeros into the
  16 × 512 accumulator it carries from point to point; at every point it adds to the accumulator the
  partial sums of the point's 128 gallery columns; at `t % 4 = 3` it reads the finished accumulator,
  forms the row block's precisions and stores them into the output block. Elsewhere the output block
  is left as found and is not written back.

  This module fixes the two conditions in closed form over the 128 points, where the output window is
  idle and where it is written back, the staging memrefs of a point, the accumulator as a memref, and
  the region invariant with the accumulator named.
-/
import proofs.«172753_j3066606649434_2_alg».proof.Proof.Gen.KernelIdeal.Launch
import proofs.«172753_j3066606649434_2_alg».proof.Proof.Gen.KernelIdeal.Skeleton
import proofs.«172753_j3066606649434_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions, from the grid coordinates -/

/-- The inner coordinate is zero: the condition of the branch that zeroes the accumulator. -/
abbrev atRowStart (i : grid1.Coords) : Prop :=
  Scalar.cmpi .ne (Scalar.extui (Scalar.cmpi .eq (BitVec.ofNat 32 (i 1).val) 0#32)) 0#32 = 1#1

/-- The inner coordinate is three: the condition of the branch that stores the output block. -/
abbrev atRowEnd (i : grid1.Coords) : Prop := k1_cond2 i = 1#1

/-- The first condition holds exactly at the points ≡ 0 (mod 4). -/
theorem atRowStart_iff : ∀ t : Fin cfg1.N, atRowStart (grid1.coords t) ↔ t.val % 4 = 0 :=
  (by decide +kernel : ∀ t : Fin grid1.N, atRowStart (grid1.coords t) ↔ t.val % 4 = 0)

/-- The second condition holds exactly at the points ≡ 3 (mod 4). -/
theorem atRowEnd_iff : ∀ t : Fin cfg1.N, atRowEnd (grid1.coords t) ↔ t.val % 4 = 3 :=
  (by decide +kernel : ∀ t : Fin grid1.N, atRowEnd (grid1.coords t) ↔ t.val % 4 = 3)

/-! ## Where the windows are idle, and where the output is written back -/

/-- The three inputs are never idle. -/
theorem in0_live : ∀ t : Fin cfg1.N, cfg1.idle 0 (grid1.coords t) = false := by decide +kernel
theorem in1_live : ∀ t : Fin cfg1.N, cfg1.idle 1 (grid1.coords t) = false := by decide +kernel
theorem in2_live : ∀ t : Fin cfg1.N, cfg1.idle 2 (grid1.coords t) = false := by decide +kernel

/-- The output window is idle at the points whose inner coordinate is not three, -/
theorem out_idle : ∀ t : Fin cfg1.N, t.val % 4 ≠ 3 → cfg1.idle 3 (grid1.coords t) = true :=
  (by decide +kernel : ∀ t : Fin grid1.N, t.val % 4 ≠ 3 → cfg1.idle 3 (grid1.coords t) = true)

/-- live where it is three, -/
theorem out_live : ∀ t : Fin cfg1.N, t.val % 4 = 3 → cfg1.idle 3 (grid1.coords t) = false :=
  (by decide +kernel : ∀ t : Fin grid1.N, t.val % 4 = 3 → cfg1.idle 3 (grid1.coords t) = false)

/-- and not written back where it is idle. -/
theorem out_noFlush (t : Fin cfg1.N) (h : t.val % 4 ≠ 3) : (cfg1.win 3).flush t = false := by
  cases hf : (cfg1.win 3).flush t with
  | false => rfl
  | true => exact absurd ((flush1_3 t).mp hf) h

/-! ## The memrefs the body is called with at a point -/

/-- Each window's current staging memref at point `t`, and that it is a whole buffer. -/
abbrev ms1_0 (t : Fin cfg1.N) : Memref sig .tc .vmem S16x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1 .f32 := win1_3.stage (cfg1.slots t 3)
abbrev hs1_3 (t : Fin cfg1.N) : (ms1_3 t).IsWhole := hstage1_3 ((cfg1.slots t 3).cast nbuf1_3)

/-- The accumulator: a whole scoped buffer of the kernel's own, passed beside the windows. -/
abbrev scM1_0 : Memref sig .tc .vmem S16x512 .f32 := Memref.whole cc1_scratch0
/-- The accumulator as a view: its contents are stated through it. -/
abbrev VS1_0 : View sig .tc .vmem S16x512 .f32 := scM1_0.view
/-- One staging buffer of the output window, through which its contents are stated (a covered buffer reads the
    same through any view of the shape). -/
abbrev VO1_3 : View sig .tc .vmem S16x1 .f32 := (Memref.whole cc1_stg3_0 : Memref sig .tc .vmem S16x1 .f32).view

/-! ## The region invariant, conjunct by conjunct -/

/-- The two scoped buffers of the other kernel, each whole at some contents: the part of the invariant this
    kernel never touches. -/
abbrev otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f))

/-- The region's invariant: the other kernel's scoped buffers, the accumulator owned at some contents, and the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.RankRunA.lean ====
/-
  The rank kernel's body at a point whose inner coordinate is zero.

  The first branch is taken: zeros are stored over the whole accumulator, whatever it held. Then the
  point's 16 × 512 distance block and its 16 × 128 column slice are loaded, the accumulator (now zeros)
  is loaded, and the sum of the two is stored over the whole accumulator. The second branch is not
  taken: the output block is not touched, nor are the label blocks.

  So from the distance block owned at known contents and the accumulator owned at ANY contents the body
  runs to the distance block as it was and the accumulator with two whole-buffer writes made, the later
  one first in the list. The list is found by running the body.
-/
import proofs.«172753_j3066606649434_2_alg».proof.Proof.RankRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point where the accumulator is reset: the writes it makes to the accumulator (last first),
    with the triple that says so. Only the two buffers the body touches here appear; the caller frames the rest. -/
noncomputable def runStart (c : Dev nD) (i : grid1.Coords)
    (arg2 : Memref sig .tc .vmem S16x512 .f32) (harg2 : arg2.IsWhole) (arg3 : Memref sig .tc .vmem S16x1 .i32) (harg3 : arg3.IsWhole)
    (arg4 : Memref sig .tc .vmem S1x512 .i32) (harg4 : arg4.IsWhole) (arg5 : Memref sig .tc .vmem S16x1 .f32) (harg5 : arg5.IsWhole)
    (arg6 : Memref sig .tc .vmem S16x512 .f32) (harg6 : arg6.IsWhole) (h0 : atRowStart i) (h3 : ¬atRowEnd i)
    (x0 : Vec F S16x512 .f32) :
    { LS : List (View.Piece (Elt F) S16x512 .f32) //
      ∀ (E : Set ℕ) (K : PUnit → sProp 𝕄),
        iprop(owns (c : Thread nD τ) arg2 fullShare x0 ∗ (∃ d, owns (c : Thread nD τ) arg6 fullShare d)
            ∗ (iprop(owns (c : Thread nD τ) arg2 fullShare x0
                ∗ (∃ f, arg6.view.loc (c : Thread nD τ) ↦[arg6.view.set]{fullShare} arg6.view.writes (Elt F) f LS)) -∗ K ⟨⟩))
          ⊢ wp frame (wpE (defs₀ (F := F)) Variants.none c none) E
              (cc1__rank_kernel i arg2 harg2 arg3 harg3 arg4 harg4 arg5 harg5 arg6 harg6) K } := by
  refine ⟨?_, fun E K => ?run⟩
  case run =>
    simp only [cc1__rank_kernel_eq_skeleton]; unfold cc1__rank_kernel_skel
    unfold owns
    iintro ⟨⟨%f0, %hf0, H0⟩, ⟨%ds, %fs, -, HS⟩, Hk⟩
    obtain rfl := harg2.eq_unread hf0
    sl_exec (disch := first | exact h0 | exact h3)
    sl_step
    iapply Hk
    isplitl [H0]
    · iexists _; isplitr; · ipureintro; exact harg2.read_unread _
      iexact H0
    iexists _; iexact HS

end Cert.KernelIdeal.Hand

end
-- ==== Proof.RankRunB.lean ====
/-
  The rank kernel's body at a point whose inner coordinate is one or two.

  Neither branch is taken. The point's distance block and its column slice are loaded, the accumulator
  is loaded at what the point before left in it, and their sum is stored over the whole accumulator.
  The output block and the label blocks are not touched.
-/
import proofs.«172753_j3066606649434_2_alg».proof.Proof.RankRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point strictly inside a row of the grid: the one write it makes to the accumulator, with the
    triple that says so. The accumulator comes in at known contents `xs`. -/
noncomputable def runInner (c : Dev nD) (i : grid1.Coords)
    (arg2 : Memref sig .tc .vmem S16x512 .f32) (harg2 : arg2.IsWhole) (arg3 : Memref sig .tc .vmem S16x1 .i32) (harg3 : arg3.IsWhole)
    (arg4 : Memref sig .tc .vmem S1x512 .i32) (harg4 : arg4.IsWhole) (arg5 : Memref sig .tc .vmem S16x1 .f32) (harg5 : arg5.IsWhole)
    (arg6 : Memref sig .tc .vmem S16x512 .f32) (harg6 : arg6.IsWhole) (h0 : ¬atRowStart i) (h3 : ¬atRowEnd i)
    (x0 : Vec F S16x512 .f32) (xs : Vec F S16x512 .f32) :
    { LS : List (View.Piece (Elt F) S16x512 .f32) //
      ∀ (E : Set ℕ) (K : PUnit → sProp 𝕄),
        iprop(owns (c : Thread nD τ) arg2 fullShare x0 ∗ owns (c : Thread nD τ) arg6 fullShare xs
            ∗ (iprop(owns (c : Thread nD τ) arg2 fullShare x0
                ∗ (∃ f, arg6.view.loc (c : Thread nD τ) ↦[arg6.view.set]{fullShare} arg6.view.writes (Elt F) f LS)) -∗ K ⟨⟩))
          ⊢ wp frame (wpE (defs₀ (F := F)) Variants.none c none) E
              (cc1__rank_kernel i arg2 harg2 arg3 harg3 arg4 harg4 arg5 harg5 arg6 harg6) K } := by
  refine ⟨?_, fun E K => ?run⟩
  case run =>
    simp only [cc1__rank_kernel_eq_skeleton]; unfold cc1__rank_kernel_skel
    unfold owns
    iintro ⟨⟨%f0, %hf0, H0⟩, ⟨%fs, %hfs, HS⟩, Hk⟩
    obtain rfl := harg2.eq_unread hf0; obtain rfl := harg6.eq_unread hfs
    sl_exec (disch := first | exact h0 | exact h3)
    sl_step
    iapply Hk
    isplitl [H0]
    · iexists _; isplitr; · ipureintro; exact harg2.read_unread _
      iexact H0
    iexists _; iexact HS

end Cert.KernelIdeal.Hand

end
-- ==== Proof.RankRunC.lean ====
/-
  The rank kernel's body at a point whose inner coordinate is three.

  The first branch is not taken, the second is. As at an inner point the accumulator, coming in at what
  the point before left, receives the sum with this point's columns. Then the finished accumulator is
  read back, the two label blocks are loaded, and the row block's sixteen precisions are stored over the
  whole output block, whatever it held.
-/
import proofs.«172753_j3066606649434_2_alg».proof.Proof.RankRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the last point of a row of the grid: the writes it makes to the output block and to the
    accumulator (last first), with the triple that says so. The three inputs come in at known contents, the
    accumulator at known contents `xs`, the output block at any. -/
noncomputable def runEnd (c : Dev nD) (i : grid1.Coords)
    (arg2 : Memref sig .tc .vmem S16x512 .f32) (harg2 : arg2.IsWhole) (arg3 : Memref sig .tc .vmem S16x1 .i32) (harg3 : arg3.IsWhole)
    (arg4 : Memref sig .tc .vmem S1x512 .i32) (harg4 : arg4.IsWhole) (arg5 : Memref sig .tc .vmem S16x1 .f32) (harg5 : arg5.IsWhole)
    (arg6 : Memref sig .tc .vmem S16x512 .f32) (harg6 : arg6.IsWhole) (h0 : ¬atRowStart i) (h3 : atRowEnd i)
    (x0 : Vec F S16x512 .f32) (x1 : Vec F S16x1 .i32) (x2 : Vec F S1x512 .i32) (xs : Vec F S16x512 .f32) :
    Σ' (LO : List (View.Piece (Elt F) S16x1 .f32)), { LS : List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E
              (cc1__rank_kernel i arg2 harg2 arg3 harg3 arg4 harg4 arg5 harg5 arg6 harg6) K } := by
  refine ⟨?_, ?_, fun E K => ?run⟩
  case run =>
    simp only [cc1__rank_kernel_eq_skeleton]; unfold cc1__rank_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact h0 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.RankBody.lean ====
/-
  The rank kernel over its 128 grid points, at the buffer contents `V` the region is entered with.

  What each point leaves is a pair: the output block's staging buffer and the accumulator. It is defined
  by recursion on the point, through one function of the point and of what the accumulator held on entry:
  at a point ≡ 0 (mod 4) the entry contents are overwritten before they are read, so the pair does not
  depend on them; at the other points the accumulator continues from the point before. The output block
  is stored at the points ≡ 3 (mod 4) only; elsewhere its component is a placeholder nothing consults,
  since there the window is idle and is not written back.

  The region invariant carries the accumulator by name: before the first point it is the launch's
  invariant (accumulator at anything); before point `n + 1` the accumulator is owned at the second
  component of what point `n` left. A reset point forgets the name on entry. With it the body obligation
  holds at every point, by the three runs; the invariant starts as the launch's and gives it back at the
  end.

  Last, the three value equations: the found writes read back as the skeleton's payloads.
-/
import proofs.«172753_j3066606649434_2_alg».proof.Proof.RankRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- The TensorCore's buffer contents when the region is entered.
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds the input's block at every point, fetched there or not: where it is
    not fetched the block index has not moved since the point before, and the body leaves inputs in place. Stated
    for any proof data over the arrays `V` whose body leaves the block. -/
theorem before_in0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before_in1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before_in2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-! ## The runs at a point, their covers, and what they leave -/

theorem notStart_of_ne (t : Fin cfg1.N) (h : t.val % 4 ≠ 0) : ¬atRowStart (grid1.coords t) :=
  fun hc => h ((atRowStart_iff t).mp hc)
theorem notEnd_of_ne (t : Fin cfg1.N) (h : t.val % 4 ≠ 3) : ¬atRowEnd (grid1.coords t) :=
  fun hc => h ((atRowEnd_iff t).mp hc)

/-- The run at a reset point `t`, on the point's memrefs and its distance block. -/
abbrev startRun (c : Dev nD) (t : Fin cfg1.N) (h0 : t.val % 4 = 0) :=
  runStart (F := F) c (grid1.coords t) (ms1_0 t) (hs1_0 t) (ms1_1 t) (hs1_1 t) (ms1_2 t) (hs1_2 t) (ms1_3 t) (hs1_3 t)
    scM1_0 (Memref.isWhole_whole _) ((atRowStart_iff t).mpr h0) (notEnd_of_ne t (by omega)) (iblk1 V c 0 t)

/-- The run at an inner point `t`, the accumulator coming in at `xs`. -/
abbrev innerRun (c : Dev nD) (t : Fin cfg1.N) (h0 : t.val % 4 ≠ 0) (h3 : t.val % 4 ≠ 3) (xs : Vec F S16x512 .f32) :=
  runInner (F := F) c (grid1.coords t) (ms1_0 t) (hs1_0 t) (ms1_1 t) (hs1_1 t) (ms1_2 t) (hs1_2 t) (ms1_3 t) (hs1_3 t)
    scM1_0 (Memref.isWhole_whole _) (notStart_of_ne t h0) (notEnd_of_ne t h3) (iblk1 V c 0 t) xs

/-- The run at a row's last point `t`, the accumulator coming in at `xs`. -/
abbrev endRun (c : Dev nD) (t : Fin cfg1.N) (h3 : t.val % 4 = 3) (xs : Vec F S16x512 .f32) :=
  runEnd (F := F) c (grid1.coords t) (ms1_0 t) (hs1_0 t) (ms1_1 t) (hs1_1 t) (ms1_2 t) (hs1_2 t) (ms1_3 t) (hs1_3 t)
    scM1_0 (Memref.isWhole_whole _) (notStart_of_ne t (by omega)) ((atRowEnd_iff t).mpr h3) (iblk1 V c 0 t) (iblk1 V c 1 t) (iblk1 V c 2 t) xs

/-- Each run's writes to the accumulator are whole-buffer writes, so they cover it; -/
theorem startCover (c : Dev nD) (t : Fin cfg1.N) (h0 : t.val % 4 = 0) (y : S16x512.Idx) :
    ∃ pc ∈ (startRun V c t h0).1, y ∈ pc.1.set :=
  View.cover_of_tiledL (startRun V c t h0).1 S16x512.size (by sl_kernel_rfl) y

theorem innerCover (c : Dev nD) (t : Fin cfg1.N) (h0 : t.val % 4 ≠ 0) (h3 : t.val % 4 ≠ 3) (xs : Vec F S16x512 .f32) (y : S16x512.Idx) :
    ∃ pc ∈ (innerRun V c t h0 h3 xs).1, y ∈ pc.1.set :=
  View.cover_of_tiledL (innerRun V c t h0 h3 xs).1 S16x512.size (by sl_kernel_rfl) y

theorem endCoverAcc (c : Dev nD) (t : Fin cfg1.N) (h3 : t.val % 4 = 3) (xs : Vec F S16x512 .f32) (y : S16x512.Idx) :
    ∃ pc ∈ (endRun V c t h3 xs).2.1, y ∈ pc.1.set :=
  View.cover_of_tiledL (endRun V c t h3 xs).2.1 S16x512.size (by sl_kernel_rfl) y

/-- and the last point's write to the output block covers the block. -/
theorem endCoverOut (c : Dev nD) (t : Fin cfg1.N) (h3 : t.val % 4 = 3) (xs : Vec F S16x512 .f32) (y : S16x1.Idx) :
    ∃ pc ∈ (endRun V c t h3 xs).1, y ∈ pc.1.set :=
  View.cover_of_tiledL (endRun V c t h3 xs).1 S16x1.size (by sl_kernel_rfl) y

/-- What each run leaves in the accumulator: its writes read back (over anything: they cover). -/
def startAcc (c : Dev nD) (t : Fin cfg1.N) (h0 : t.val % 4 = 0) : Vec F S16x512 .f32 :=
  VS1_0.read (Elt F) (VS1_0.writes (Elt F) VS1_0.junk (startRun V c t h0).1)
def innerAcc (c : Dev nD) (t : Fin cfg1.N) (h0 : t.val % 4 ≠ 0) (h3 : t.val % 4 ≠ 3) (xs : Vec F S16x512 .f32) : Vec F S16x512 .f32 :=
  VS1_0.read (Elt F) (VS1_0.writes (Elt F) VS1_0.junk (innerRun V c t h0 h3 xs).1)
def endAcc (c : Dev nD) (t : Fin cfg1.N) (h3 : t.val % 4 = 3) (xs : Vec F S16x512 .f32) : Vec F S16x512 .f32 :=
  VS1_0.read (Elt F) (VS1_0.writes (Elt F) VS1_0.junk (endRun V c t h3 xs).2.1)
/-- What the last point of a row leaves in the output block. -/
def endOut (c : Dev nD) (t : Fin cfg1.N) (h3 : t.val % 4 = 3) (xs : Vec F S16x512 .f32) : Vec F S16x1 .f32 :=
  VO1_3.read (Elt F) (VO1_3.writes (Elt F) VO1_3.junk (endRun V c t h3 xs).1)
/-- The output component at a point that stores nothing into the block: a placeholder. Nothing reads it — there
    the window is idle, is not written back, and the next point is handed the buffer as this one found it. -/
def idleOut : Vec F S16x1 .f32 := VO1_3.read (Elt F) VO1_3.junk

/-! ## What the output block and the accumulator hold after each point -/

/-- One point's effect on the pair, given what the accumulator held on entry (`prev`; unread at a reset point). -/
def pointOut (c : Dev nD) (t : Fin cfg1.N) (prev : Vec F S16x512 .f32) : Vec F S16x1 .f32 × Vec F S16x512 .f32 :=
  if h0 : t.val % 4 = 0 then (idleOut, startAcc V c t h0)
  else if h3 : t.val % 4 = 3 then (endOut V c t h3 prev, endAcc V c t h3 prev)
  else (idleOut, innerAcc V c t h0 h3 prev)

/-- After point `n`: (the output window's staging buffer, the accumulator). -/
def outsAt1 (c : Dev nD) : (n : ℕ) → n < cfg1.N → Vec F S16x1 .f32 × Vec F S16x512 .f32
  | 0, hn => pointOut V c ⟨0, hn⟩ (VS1_0.read (Elt F) VS1_0.junk)
  | n + 1, hn => pointOut V c ⟨n + 1, hn⟩ (outsAt1 c n (Nat.lt_of_succ_lt hn)).2

/-- At a reset point the pair is the reset run's, whatever came before. -/
theorem outsAt1_start (c : Dev nD) (t : Fin cfg1.N) (h0 : t.val % 4 = 0) :
    outsAt1 V c t.val t.isLt = (idleOut, startAcc V c t h0) := by
  obtain ⟨n, hn⟩ := t
  cases n with
  | zero => show pointOut V c ⟨0, hn⟩ _ = _; exact dif_pos h0
  | succ n => show pointOut V c ⟨n + 1, hn⟩ _ = _; exact dif_pos h0

/-- At an inner point the accumulator continues from the point before. -/
theorem outsAt1_inner (c : Dev nD) (t : Fin cfg1.N) (h0 : t.val % 4 ≠ 0) (h3 : t.val % 4 ≠ 3) :
    outsAt1 V c t.val t.isLt
      = (idleOut, innerAcc V c t h0 h3 (outsAt1 V c (t.val - 1) (Nat.lt_of_le_of_lt (Nat.sub_le _ _) t.isLt)).2) := by
  obtain ⟨n, hn⟩ := t
  cases n with
  | zero => exact absurd (Nat.zero_mod _) h0
  | succ n => show pointOut V c ⟨n + 1, hn⟩ _ = _; exact (dif_neg h0).trans (dif_neg h3)

/-- At a row's last point too, and the output block is stored. -/
theorem outsAt1_end (c : Dev nD) (t : Fin cfg1.N) (h3 : t.val % 4 = 3) :
    outsAt1 V c t.val t.isLt
      = (endOut V c t h3 (outsAt1 V c (t.val - 1) (Nat.lt_of_le_of_lt (Nat.sub_le _ _) t.isLt)).2,
         endAcc V c t h3 (outsAt1 V c (t.val - 1) (Nat.lt_of_le_of_lt (Nat.sub_le _ _) t.isLt)).2) := by
  obtain ⟨n, hn⟩ := t
  cases n with
  | zero => exact absurd (show 0 % 4 = 3 from h3) (by decide)
  | succ n =>
    show pointOut V c ⟨n + 1, hn⟩ _ = _
    exact (dif_neg (show ¬(n + 1) % 4 = 0 by have : (n + 1) % 4 = 3 := h3; omega)).trans (dif_pos h3)

/-! ## The invariant, with the accumulator named -/

/-- Before point `n`: at `n = 0` the launch's invariant; afterwards the same with the accumulator owned at what
    point `n - 1` left in it. -/
def PhiS (c : Dev nD) : (n : ℕ) → n ≤ cfg1.N → sProp 𝕄
  | 0, _ => Pipeline.ΦA spec1 c
  | n + 1, hn =>
    iprop(iprop((∃ f : Buf (Elt F) ((c : Thread nD τ).loc cc0_stg0_0), ((c : Thread nD τ).loc cc0_stg0_0) ↦{fullShare} f)
        ∗ (∃ f : Buf (Elt F) ((c : Thread nD τ).loc cc0_stg1_0), ((c : Thread nD τ).loc cc0_stg1_0) ↦{fullShare} f)
        ∗ owns (c : Thread nD τ) scM1_0 fullShare (outsAt1 V c n hn).2) ∗ (∃ r, prngReg c r))

theorem PhiS_succ (c : Dev nD) (n : ℕ) (hn : n < cfg1.N) :
    PhiS V c (n + 1) hn
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg1_0), ((c : Thread nD τ).loc cc0_stg1_0) ↦{fullShare} f)
        ∗ owns (c : Thread nD τ) scM1_0 fullShare (outsAt1 V c n hn).2) ∗ (∃ r, prngReg c r)) := rfl

theorem PhiS_pos (c : Dev nD) (n : ℕ) (h : n ≤ cfg1.N) (hz : n ≠ 0) :
    PhiS V c n h
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg1_0), ((c : Thread nD τ).loc cc0_stg1_0) ↦{fullShare} f)
        ∗ owns (c : Thread nD τ) scM1_0 fullShare (outsAt1 V c (n - 1) (by omega)).2) ∗ (∃ r, prngReg c r)) := by
  cases n with
  | zero => exact absurd rfl hz
  | succ n => rfl

/-- Forgetting the accumulator's name gives the launch's invariant back, before any point. -/
theorem PhiS_forget (c : Dev nD) (n : ℕ) (h : n ≤ cfg1.N) : PhiS V c n h ⊢ Pipeline.ΦA spec1 c := by
  cases n with
  | zero => exact Idealize.SL.BI.Entails.refl _
  | succ n =>
    rw [PhiS_succ, PhiA1_eq]
    iintro ⟨⟨HR0, HR1, HS⟩, Hg⟩
    isplitl [HR0 HR1 HS]
    · isplitl [HR0]; · iexact HR0
      isplitl [HR1]; · iexact HR1
      iexists _; iexact HS
    iexact Hg

/-- The same, conjunct by conjunct. -/
theorem PhiS_forget' (c : Dev nD) (n : ℕ) (h : n ≤ cfg1.N) :
    PhiS V c n h ⊢ iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1_0 fullShare d)) ∗ (∃ r, prngReg c r)) := by
  rw [← PhiA1_eq]; exact PhiS_forget V c n h

/-! ## The pipeline's proof data -/

/-- The region's proof data on core `c`: the arrays as found; after the body each input's buffer at its block, the
    output's at the first component of `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before_in0 V (dat1 V c) (A_eq1 V c 0) (after1_0 V c) t d
theorem before1_1 (c : Dev nD) (t : Fin cfg1.N) (d) : (dat1 V c).before 1 t d = iblk1 V c 1 t :=
  before_in1 V (dat1 V c) (A_eq1 V c 1) (after1_1 V c) t d
theorem before1_2 (c : Dev nD) (t : Fin cfg1.N) (d) : (dat1 V c).before 2 t d = iblk1 V c 2 t :=
  before_in2 V (dat1 V c) (A_eq1 V c 2) (after1_2 V c) t d

theorem Phi_castSucc (c : Dev nD) (t : Fin cfg1.N) :
    (dat1 V c).Φ t.castSucc = PhiS V c t.val (Nat.le_of_lt t.isLt) := rfl

/-! ## The body obligation -/

/-- What the body is handed at point `t`: the invariant, what the core owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The inputs are live everywhere: the body hands each back at its block. -/
theorem leaves_in0 (c : Dev nD) (t : Fin cfg1.N) :
    (dat1 V c).leavesExact 0 t = owns (c : Thread nD τ) (ms1_0 t) fullShare (iblk1 V c 0 t) := by
  unfold Dat.leavesExact; rw [in0_live t, after1_0]
theorem leaves_in1 (c : Dev nD) (t : Fin cfg1.N) :
    (dat1 V c).leavesExact 1 t = owns (c : Thread nD τ) (ms1_1 t) fullShare (iblk1 V c 1 t) := by
  unfold Dat.leavesExact; rw [in1_live t, after1_1]
theorem leaves_in2 (c : Dev nD) (t : Fin cfg1.N) :
    (dat1 V c).leavesExact 2 t = owns (c : Thread nD τ) (ms1_2 t) fullShare (iblk1 V c 2 t) := by
  unfold Dat.leavesExact; rw [in2_live t, after1_2]
/-- The output is live at a row's last point: the body hands it back at what it stored. -/
theorem leaves_out_end (c : Dev nD) (t : Fin cfg1.N) (h3 : t.val % 4 = 3) :
    (dat1 V c).leavesExact 3 t = owns (c : Thread nD τ) (ms1_3 t) fullShare ((outsAt1 V c t.val t.isLt).1) := by
  unfold Dat.leavesExact; rw [out_live t h3, after1_3]

set_option maxHeartbeats 4000000 in
/-- The body at any point, by the point's residue mod 4. At a reset point the invariant's accumulator, named or
    not, is handed over at anything; at the other points (never the first) it is handed over at what the point
    before left. Every run gives the accumulator back with covering writes made, which is owning it at the
    point's second component. The output block is given back as found except at a row's last point, where it
    comes back with one covering write made. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves_in0, leaves_in1, leaves_in2, Phi_castSucc]
  by_cases h0 : t.val % 4 = 0
  · have h3 : t.val % 4 ≠ 3 := by omega
    rw [Dat.leavesExact_idle (dat1 V c) 3 t (out_idle t h3) (out_noFlush t h3), outsAt1_start V c t h0]
    unfold startAcc; (try dsimp only)
    iintro ⟨HP, Ho, ⟨%d0, H0⟩, ⟨%d1, H1⟩, ⟨%d2, H2⟩, ⟨%d3, H3⟩⟩
    ihave HA := (PhiS_forget' V c t.val _) $$ HP
    icases HA with ⟨⟨HR0, HR1, HS⟩, Hg⟩
    iapply ((startRun V c t h0).2 Set.univ _)
    isplitl [H0]; · iexact H0
    isplitl [HS]; · iexact HS
    iintro ⟨H0, ⟨%es, HS⟩⟩
    isplitl [HR0 HR1 HS Hg]
    · isplitl [HR0 HR1 HS]
      · isplitl [HR0]; · iexact HR0
        isplitl [HR1]; · iexact HR1
        unfold owns; iexists _; isplitr
        swap; · iexact HS
        ipureintro; exact View.read_writes_of_cover _ _ _ _ _ (startCover V c t h0)
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz]
    by_cases h3 : t.val % 4 = 3
    · rw [leaves_out_end V c t h3, outsAt1_end V c t h3]
      unfold endOut endAcc; (try dsimp only)
      iintro ⟨⟨⟨HR0, HR1, HS⟩, Hg⟩, Ho, ⟨%d0, H0⟩, ⟨%d1, H1⟩, ⟨%d2, H2⟩, ⟨%d3, H3⟩⟩
      iapply ((endRun V c t h3 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR0 HR1 HS Hg]
      · isplitl [HR0 HR1 HS]
        · isplitl [HR0]; · iexact HR0
          isplitl [HR1]; · iexact HR1
          unfold owns; iexists _; isplitr
          swap; · iexact HS
          ipureintro; exact View.read_writes_of_cover _ _ _ _ _ (endCoverAcc V c t h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (endCoverOut V c t h3 _)
    · rw [Dat.leavesExact_idle (dat1 V c) 3 t (out_idle t h3) (out_noFlush t h3), outsAt1_inner V c t h0 h3]
      unfold innerAcc; (try dsimp only)
      iintro ⟨⟨⟨HR0, HR1, HS⟩, Hg⟩, Ho, ⟨%d0, H0⟩, ⟨%d1, H1⟩, ⟨%d2, H2⟩, ⟨%d3, H3⟩⟩
      iapply ((innerRun V c t h0 h3 _).2 Set.univ _)
      isplitl [H0]; · iexact H0
      isplitl [HS]; · iexact HS
      iintro ⟨H0, ⟨%es, HS⟩⟩
      isplitl [HR0 HR1 HS Hg]
      · isplitl [HR0 HR1 HS]
        · isplitl [HR0]; · iexact HR0
          isplitl [HR1]; · iexact HR1
          unfold owns; iexists _; isplitr
          swap; · iexact HS
          ipureintro; exact View.read_writes_of_cover _ _ _ _ _ (innerCover V c t h0 h3 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The launch's invariant is the invariant before the first point. -/
theorem hin1 (c : Dev nD) : Pipeline.ΦA spec1 c ⊢ (dat1 V c).Φ 0 := by
  show Pipeline.ΦA spec1 c ⊢ PhiS V c 0 (Nat.zero_le _)
  exact Idealize.SL.BI.Entails.refl _

/-- After the last point the invariant gives the launch's back: the accumulator's name is forgotten. -/
theorem hout1 (c : Dev nD) : (dat1 V c).Φ (Fin.last cfg1.N) ⊢ Pipeline.ΦA spec1 c := by
  show PhiS V c cfg1.N (Nat.le_refl _) ⊢ _
  exact PhiS_forget V c _ _

end

end Cert.KernelIdeal.Hand

end
-- ==== Proof.TwoLaunches.lean ====
/-
  @main of the kernel program as four segments — the distance launch, the reshapes of the labels, the rank launch,
  the mean — and its run: every weakly fair execution terminates without a fault, and the final contents of every
  unscoped buffer are the fold `B4` of the launch memory through the four segments. A launch's segment record says
  how its windows' arrays leave the thread's buffers on entry and return on exit, and how the generator register
  passes through the launch's invariant; the per-point halves are DistBody (one point) and RankBody (a 32 × 4 grid
  with an accumulator carried along each row of four points). The frame claim — both arguments end as launched —
  is read off the fold.
-/
import proofs.«172753_j3066606649434_2_alg».proof.Proof.DistBody
import proofs.«172753_j3066606649434_2_alg».proof.Proof.RankBody
import proofs.«172753_j3066606649434_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold at each boundary of @main

@main is: the distance launch; two reshapes of the labels; the rank launch; the mean and `1 − ·`.
`B0 … B4` are core `c`'s buffer contents at the five boundaries, each from the one before: a launch replaces its
windows' arrays by what its write-backs leave, a host stretch applies its operations. -/

/-- At launch. -/
abbrev B0 : Dev nD → Valuation τ sig (Elt F) := fun c b => (s₀ m ρ).mem ((c : Dev nD), b)
abbrev U0 : (c : Dev nD) → (b : Ref sig .tc) → Buf (Elt F) ((c : Thread nD τ).loc b) := fun c b => B0 m ρ c b
/-- After the distance launch. -/
def B1 (c : Dev nD) : Valuation τ sig (Elt F) :=
  Pipeline.withArrays spec0 c (B0 m ρ c) fun w => (dat0 (U0 m ρ) c).arrAt w cfg0.N
theorem B1_arr (c : Dev nD) (w : Fin cfg0.W) :
    B1 m ρ c (Proc.devRef .tc (Pipeline.arrRef spec0 w)) = (dat0 (U0 m ρ) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev U1 : (c : Dev nD) → (b : Ref sig .tc) → Buf (Elt F) ((c : Thread nD τ).loc b) := fun c b => B1 m ρ c b
/-- After the reshapes of the labels. -/
abbrev B2 : Dev nD → Valuation τ sig (Elt F) := fun c => StableHlo.after hostOps1 (B1 m ρ c)
abbrev U2 : (c : Dev nD) → (b : Ref sig .tc) → Buf (Elt F) ((c : Thread nD τ).loc b) := fun c b => B2 m ρ c b
/-- After the rank launch. -/
def B3 (c : Dev nD) : Valuation τ sig (Elt F) :=
  Pipeline.withArrays spec1 c (B2 m ρ c) fun w => (dat1 (U2 m ρ) c).arrAt w cfg1.N
theorem B3_arr (c : Dev nD) (w : Fin cfg1.W) :
    B3 m ρ c (Proc.devRef .tc (Pipeline.arrRef spec1 w)) = (dat1 (U2 m ρ) c).arrAt w cfg1.N := by
  unfold B3; exact Pipeline.withArrays_arr spec1 launch1.win.arr_inj c _ _ w
theorem B3_other (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev U3 : (c : Dev nD) → (b : Ref sig .tc) → Buf (Elt F) ((c : Thread nD τ).loc b) := fun c b => B3 m ρ c b
/-- At the end. -/
abbrev B4 : Dev nD → Valuation τ sig (Elt F) := fun c => StableHlo.after hostOps2 (B3 m ρ c)

/-! ## The two launches as segments of @main -/

/-- No launch has a prefetched table. -/
abbrev adm : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What every segment carries beside the buffers: the generator register at some state, and the core owing nothing. -/
abbrev Beside (c : Dev nD) : sProp 𝕄 := iprop((∃ r, prngReg c r) ∗ ∃ W, owes (c : Thread nD τ) (0 : CellTallies nD τ sig Unit) W)
/-- A stretch of host operations as a segment, entered from the contents `B`. -/
abbrev hostSeg (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A launch's arrays leave the thread's buffers on entry and return at the launch's final contents on exit; the
    generator register goes through the launch's invariant; nothing is owed. The four entailments are the same for
    both launches up to the invariant's ends, which are passed in. -/
theorem entry_owes (c : Dev nD) :
    (iprop(∃ W, owes (c : Thread nD τ) (0 : CellTallies nD τ sig Unit) W) : sProp 𝕄) ⊢
      iprop(∃ W, ⌜∀ (_ : GSem nD τ sig) (_ : Unit), True ∨ False⌝ ∗ owes (c : Thread nD τ) (0 : CellTallies nD τ sig Unit) W) := by
  iintro ⟨%W, H⟩; iexists W; isplitr
  · ipureintro; exact fun _ _ => Or.inl trivial
  · iexact H

set_option backward.isDefEq.respectTransparency.types false in
/-- The distance launch, entered from `B0` and left at `B1`. -/
def launchDist : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (B0 m ρ c) ∗ Beside c)
  post c := iprop(StableHlo.held (c : Thread nD τ) (Pipeline.ucRefs τ sig) (B1 m ρ c) ∗ Beside c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      · iexact Hdue
    isplitl [Hreg]; · iexact Hreg
    iexact Hrest
  hin c := by
    rw [show (pdats m ρ 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m ρ 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (fun w => (B1_arr m ρ c w).symm)
      (fun b hb => B1_other m ρ c b fun w e => hb (Finset.mem_image.mpr ⟨w, Finset.mem_univ _, e⟩))
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

/-- What the rank launch is handed at its entry makes the invariant its first point starts from: the buffers no
    window stages at any contents, and the generator register. -/
theorem rank_inv_in (c : Dev nD) :
    (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
  unfold Pipeline.ΦA
  iintro ⟨Hreg, -, Hsc⟩
  isplitl [Hsc]; · iexact Hsc
  iexact Hreg
/-- And that invariant gives them back at its exit; the kernel has no semaphore of its own. -/
theorem rank_inv_out (c : Dev nD) :
    (Pipeline.ΦA spec1 c : sProp 𝕄) ⊢ iprop((∃ r, prngReg c r)
      ∗ Pipeline.ownSems0 (Ix := Unit) (Name := ℕ) (U := UR sig nD τ) (Lvl := ℕ) (Val := Elt F) (τ := τ) (fun k : PEmpty => k.elim) c
      ∗ Pipeline.scopedRest spec1 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- The rank launch, entered from `B2` and left at `B3`. Its invariant's ends are the scratch-carrying one's:
    it starts from, and gives back, the buffers no window stages at any contents and the generator register. -/
def launchRank : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (B2 m ρ c) ∗ Beside c)
  post c := iprop(StableHlo.held (c : Thread nD τ) (Pipeline.ucRefs τ sig) (B3 m ρ c) ∗ Beside c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hbufs, Hreg, Hdue⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr
      · ipureintro; exact fun _ _ => Or.inl trivial
      · iexact Hdue
    isplitl [Hreg]; · iexact Hreg
    iexact Hrest
  hin c := (rank_inv_in c).trans (hin1 (U2 m ρ) c)
  hout c := (hout1 (U2 m ρ) c).trans (rank_inv_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (fun w => (B3_arr m ρ c w).symm)
      (fun b hb => B3_other m ρ c b fun w e => hb (Finset.mem_image.mpr ⟨w, Finset.mem_univ _, e⟩))
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

/-- @main, segment by segment. -/
abbrev segs : List (Pipeline.Seg (pcfgs (F := F)) adm (pdats m ρ) () defs₀ 𝒱₀ L lv) :=
  [ .region (launchDist m ρ),
    .host (hostSeg hostOps1 hostOps1_sub hostOps1_fresh (B1 m ρ)),
    .region (launchRank m ρ),
    .host (hostSeg hostOps2 hostOps2_sub hostOps2_fresh (B3 m ρ)) ]
theorem main_is_segs (c : Dev nD) : main (F := F) c = Pipeline.Seg.run (segs m ρ) := (main_chain c).trans (by chain_rfl)

set_option backward.isDefEq.respectTransparency.types false in
/-- THE RUN. From any memory with every counter at zero, every weakly fair execution of @main terminates without a
    fault, and in the final state every unscoped buffer of core `c` holds `B4 m ρ c` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c))
    (Tₙ := fun c => iprop(StableHlo.held (c : Thread nD τ) (Pipeline.ucRefs τ sig) (B4 m ρ c) ∗ ∃ r, prngReg c r))
    (hch := ⟨fun _ => .rfl, fun _ => .rfl, fun _ => .rfl, fun _ => .rfl, fun c => by
      show (iprop(StableHlo.held (c : Thread nD τ) (Pipeline.ucRefs τ sig) (B4 m ρ c) ∗ Beside c) : sProp 𝕄)
        ⊢ iprop((StableHlo.held (c : Thread nD τ) (Pipeline.ucRefs τ sig) (B4 m ρ c) ∗ ∃ r, prngReg c r)
            ∗ ∃ W, owes (c : Thread nD τ) (0 : CellTallies nD τ sig Unit) W)
      iintro ⟨Hh, Hreg, Hdue⟩
      isplitl [Hh Hreg]
      · isplitl [Hh]; · iexact Hh
        iexact Hreg
      · iexact Hdue⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, Hdue, -, Hreg, -⟩, -⟩
      imodintro
      isplitl [Hh]; · iexact Hh
      isplitl [Hreg]; · iexists _; iexact Hreg
      iexists ∅; iexact Hdue)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-! ## The arguments end as launched -/

/-- The embedding array: the distance launch only reads it, nothing else touches it. -/
theorem B4_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_writes_sub hostOps2 _ hostOps2_writes (by decide)
    _ = B2 m ρ c (Proc.devRef .tc main_arg0) := B3_other m ρ c main_arg0 (by decide)
    _ = B1 m ρ c (Proc.devRef .tc main_arg0) := StableHlo.after_of_writes_sub hostOps1 _ hostOps1_writes (by decide)
    _ = B0 m ρ c (Proc.devRef .tc main_arg0) := (B1_arr m ρ c 0).trans (((dat0 (U0 m ρ) c).arrAt_in 0 rfl _).trans (A_eq0 (U0 m ρ) c 0))
    _ = m ((c : Thread nD τ).loc main_arg0) := rfl
/-- The labels: no launch stages them, no operation writes them. -/
theorem B4_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_writes_sub hostOps2 _ hostOps2_writes (by decide)
    _ = B2 m ρ c (Proc.devRef .tc main_arg1) := B3_other m ρ c main_arg1 (by decide)
    _ = B1 m ρ c (Proc.devRef .tc main_arg1) := StableHlo.after_of_writes_sub hostOps1 _ hostOps1_writes (by decide)
    _ = B0 m ρ c (Proc.devRef .tc main_arg1) := B1_other m ρ c main_arg1 (by decide)
    _ = m ((c : Thread nD τ).loc main_arg1) := rfl

/-- The frame claim at any instance: @main runs to the end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B4_arg0 m ρ c),
     (h c _ (mem_uc main_arg1 (by decide))).trans (B4_arg1 m ρ c)⟩) (run_all m ρ)

end Cert.KernelIdeal.Hand

end
-- ==== Proof.Spec.lean ====
/-
  The function both programs compute, stated once over plain indices and extended reals.

  Input: an embedding matrix `e` (512 rows of 384 entries) and one integer label per row.
  * `sqn e q` is the squared norm of row `q`, `gram e q j` the inner product of rows `q` and `j`.
  * `dist e q j` is the Euclidean distance of rows `q` and `j`, computed as
    `√ max (|q|² + |j|² − 2⟨q, j⟩) ε`, with the diagonal replaced by a large constant.
  * `rank D q j` is the soft rank of `j` among the gallery for query `q`: the sum over `m` of a
    logistic step of `(D q j − D q m) / T`.
  * `prec` is the soft precision at five of a query: the sum over same-label gallery items (the query
    itself excluded) of a logistic step of `5 − rank`, over the number of such items capped at five.
  * `loss` is one minus the mean precision.

  The logistic step appears in two spellings: `sigE T x = 1 / (1 + exp (−(x / T)))` and
  `sigT k x = ½ · tanh (x · k) + ½`. They are one function when `k = 1 / (2 T)` (Algebra.lean).
  Float literals are kept as the words both programs carry.
-/
import Idealize.ShloMosaic.PureOps.Ideal
import Idealize.ShloMosaic.Lib.ValueIdx

noncomputable section

namespace Cert.SoftRank

open Idealize.ShloMosaic

/-- The literals, as the f32 words the two programs share. -/
abbrev w0 : EReal := Ideal.ofBits .f32 0x00000000#32
abbrev w2 : EReal := Ideal.ofBits .f32 0x40000000#32
abbrev wEps : EReal := Ideal.ofBits .f32 0x2B8CBCCC#32
abbrev wBig : EReal := Ideal.ofBits .f32 0x49742400#32
abbrev wT : EReal := Ideal.ofBits .f32 0x3C23D70A#32
abbrev w1 : EReal := Ideal.ofBits .f32 0x3F800000#32
abbrev wHalf : EReal := Ideal.ofBits .f32 0x3F000000#32
abbrev w5 : EReal := Ideal.ofBits .f32 0x40A00000#32
abbrev w512 : EReal := Ideal.ofBits .f32 0x44000000#32

/-- Half the reciprocal of the temperature word `wT` (which is 5368709 / 2²⁹), as a rational. -/
def kap : EReal := ((268435456 / 5368709 : ℝ) : EReal)

/-- The logistic step as a quotient: `1 / (1 + exp (−(x / T)))`. -/
def sigE (T x : EReal) : EReal := Ideal.div w1 (w1 + Ideal.exp (-(Ideal.div x T)))

/-- The logistic step through the hyperbolic tangent: `½ · tanh (x · k) + ½`. -/
def sigT (k x : EReal) : EReal := wHalf * Ideal.tanh (x * k) + wHalf

section
variable (e : Fin 512 → Fin 384 → EReal) (lab : Fin 512 → BitVec 32)

/-- Squared norm of row `q`. -/
def sqn (q : Fin 512) : EReal := ∑ k : Fin 384, e q k * e q k

/-- Inner product of rows `q` and `j`. -/
def gram (q j : Fin 512) : EReal := ∑ k : Fin 384, e q k * e j k

/-- Distance of rows `q` and `j`; the diagonal is set to a large constant. -/
def dist (q j : Fin 512) : EReal :=
  if q = j then wBig else Ideal.sqrt (max (sqn e q + sqn e j - w2 * gram e q j) wEps)

/-- Same label, and not the query itself: one or zero. -/
def gt (q j : Fin 512) : EReal := if lab q = lab j ∧ q ≠ j then 1 else 0

end

/-- Soft rank of gallery item `j` for query `q` over a distance matrix `D`. -/
def rank (D : Fin 512 → Fin 512 → EReal) (q j : Fin 512) : EReal :=
  ∑ m : Fin 512, sigE wT (D q j - D q m)

/-- Soft precision at five of query `q`. -/
def prec (lab : Fin 512 → BitVec 32) (D : Fin 512 → Fin 512 → EReal) (q : Fin 512) : EReal :=
  Ideal.div (∑ j : Fin 512, sigE w1 (w5 - rank D q j) * gt lab q j) (min (∑ j : Fin 512, gt lab q j) w5)

/-- One minus the mean precision. -/
def loss (e : Fin 512 → Fin 384 → EReal) (lab : Fin 512 → BitVec 32) : EReal :=
  w1 - Ideal.div (∑ q : Fin 512, prec lab (dist e) q) w512

end Cert.SoftRank

end
-- ==== Proof.Payloads.lean ====
/-
  The kernel bodies' arithmetic read at an index: each payload of the two kernels, at one element, as
  the specification's formula of the values it reads.
-/
import proofs.«172753_j3066606649434_2_alg».proof.Proof.Spec
import proofs.«172753_j3066606649434_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.PayVal

open Cert.KernelIdeal Cert.KernelIdeal.Gen Idealize.ShloMosaic Idealize.ShloMosaic.ValueIdx Cert.SoftRank

/-- The named constant of the rank kernel denotes the rational the table gives it. -/
theorem named_kap : Named.named (F := Ideal) κ "half_over_t2" (φ := .f32) 0x42480000#32 = kap :=
  IdealRules.named_const.ideal_named_scalar _ _ _ _ rfl

/-! ## The accumulator's reset -/

theorem pay_zero (r : Fin 16) (j : Fin 512) : k1_pay1 (F := Ideal) (ix2 r j) = 0 := by
  unfold k1_pay1
  rw [shapeCast_self]
  exact Ideal.ofBits_zero_f32

/-! ## A sum along the last axis, read at coordinates -/

/-- A float sum of an `[a, b, c]` array along its last axis reads, at `(i, j)`, the sum over `m` of the array
    at `(i, j, m)`. -/
theorem laneSum3_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ m : Fin c, src (ix3 i j m) := by
  refine (Ideal.multiReduction_add_single src acc h hφ hacc (ix2 i j)).trans ?_
  refine Finset.sum_congr rfl fun m _ => congrArg src (funext fun ax => ?_)
  match ax with
  | ⟨0, _⟩ => exact Fin.ext rfl
  | ⟨1, _⟩ => exact Fin.ext rfl
  | ⟨2, _⟩ => exact Fin.ext rfl

/-- A float sum of an `[a, b]` array along its last axis reads, at `i`, the sum over `m` of the array at
    `(i, m)`. -/
theorem laneSum2_apply {φ : FTy} {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction .add [1] ⟨1, ![a]⟩ src acc h hφ hacc (ix1 i) = ∑ m : Fin b, src (ix2 i m) := by
  refine (Ideal.multiReduction_add_single src acc h hφ hacc (ix1 i)).trans ?_
  refine Finset.sum_congr rfl fun m _ => congrArg src (funext fun ax => ?_)
  match ax with
  | ⟨0, _⟩ => exact Fin.ext rfl
  | ⟨1, _⟩ => exact Fin.ext rfl

/-! ## One tile's contribution to the accumulator -/

/-- A `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

theorem pay_acc (x3 : Vec Ideal S16x512 .f32) (x8 : Vec Ideal S16x128 .f32) (x22 : Vec Ideal S16x512 .f32)
    (r : Fin 16) (j : Fin 512) :
    k1_pay2 (F := Ideal) x3 x8 x22 (ix2 r j)
      = x22 (ix2 r j) + ∑ m : Fin 128, sigT kap (x3 (ix2 r j) - x8 (ix2 r m)) := by
  unfold k1_pay2
  rw [shapeCast_self, shapeCast_self, shapeCast_self, addf_apply]
  congr 1
  refine (laneSum3_apply _ 0x00000000#32 Facts₀.reduces_S16x512x128_S16x512 (.inl rfl) rfl r j).trans ?_
  refine Finset.sum_congr rfl fun m _ => ?_
  show wHalf * Ideal.tanh ((broadcastTo S16x512x128 _ _ (ix3 r j m) - broadcastTo S16x512x128 _ _ (ix3 r j m))
      * Named.named (F := Ideal) κ "half_over_t2" (φ := .f32) 0x42480000#32) + wHalf = _
  rw [broadcastTo_ab1_abc_apply, broadcastTo_a1c_abc_apply, shapeCast_ab_ab1_apply, shapeCast_ac_a1c_apply,
    named_kap]
  rfl

/-! ## Words: a comparison of two small naturals, and a select on it -/

/-- Two naturals below `2 ^ 32` are equal exactly when their 32-bit words are. -/
theorem ofNat32_eq_iff (a b : ℕ) (ha : a < 2 ^ 32) (hb : b < 2 ^ 32) :
    BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h; rw [h]

/-- The equality test of two words, as a bit. -/
theorem cmpi_eq_bit (x y : BitVec 32) : IntOp.cmpi .eq x y = if x = y then 1#1 else 0#1 := by
  unfold IntOp.cmpi
  by_cases h : x = y
  · simp [h]
  · have hb : (x == y) = false := beq_eq_false_iff_ne.mpr h
    rw [if_neg h, hb]; rfl

/-- A select on a decided bit is the `if`. -/
theorem select_ite {α : Type} (p : Prop) [Decidable p] (A B : α) :
    Scalar.select (if p then 1#1 else 0#1) A B = if p then A else B := by
  by_cases h : p
  · rw [if_pos h, if_pos h]; exact select_one A B
  · rw [if_neg h, if_neg h]; exact select_zero A B

/-! ## The distance kernel -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The kernel's product of the embedding matrix with its transpose reads, at `(q, j)`, the sum over the
    contracted coordinate. -/
theorem dot_lhs_0 (i : S512x512.Idx) (c : dot_S512x384_S384x512_S512x512_1_0_0_1_n_n.contr.Idx) :
    (dot_S512x384_S384x512_S512x512_1_0_0_1_n_n.lhsIdx i c 0).val = (i 0).val := by
  unfold DotDims.lhsIdx
  rw [dif_neg (show ¬(0 : Fin S512x384.rank) ∈ dot_S512x384_S384x512_S512x512_1_0_0_1_n_n.lhsBatch by decide),
    dif_pos (show (0 : Fin S512x384.rank) ∈ dot_S512x384_S384x512_S512x512_1_0_0_1_n_n.lhsNonContracting by decide)]
  rfl
theorem dot_lhs_1 (i : S512x512.Idx) (c : dot_S512x384_S384x512_S512x512_1_0_0_1_n_n.contr.Idx) :
    (dot_S512x384_S384x512_S512x512_1_0_0_1_n_n.lhsIdx i c 1).val = (c ⟨0, by decide⟩).val :=
  dot_S512x384_S384x512_S512x512_1_0_0_1_n_n.lhsIdx_val_of_single rfl i c
theorem dot_rhs_0 (i : S512x512.Idx) (c : dot_S512x384_S384x512_S512x512_1_0_0_1_n_n.contr.Idx) :
    (dot_S512x384_S384x512_S512x512_1_0_0_1_n_n.rhsIdx i c 0).val = (c ⟨0, by decide⟩).val :=
  dot_S512x384_S384x512_S512x512_1_0_0_1_n_n.rhsIdx_val_of_single rfl i c
theorem dot_rhs_1 (i : S512x512.Idx) (c : dot_S512x384_S384x512_S512x512_1_0_0_1_n_n.contr.Idx) :
    (dot_S512x384_S384x512_S512x512_1_0_0_1_n_n.rhsIdx i c 1).val = (i 1).val := by
  unfold DotDims.rhsIdx
  rw [dif_neg (show ¬(1 : Fin S384x512.rank) ∈ dot_S512x384_S384x512_S512x512_1_0_0_1_n_n.rhsBatch by decide),
    dif_pos (show (1 : Fin S384x512.rank) ∈ dot_S512x384_S384x512_S512x512_1_0_0_1_n_n.rhsNonContracting by decide)]
  rfl

theorem matmul_qj_apply (lhs : FVec Ideal S512x384 .f32) (rhs : FVec Ideal S384x512 .f32) (q j : Fin 512) :
    matmul dot_S512x384_S384x512_S512x512_1_0_0_1_n_n (some .fp32) lhs rhs (constant S512x512 .f32 0x00000000#32) (ix2 q j)
      = ∑ k : Fin 384, lhs (ix2 q k) * rhs (ix2 k j) := by
  refine (Ideal.matmul_constant_zero_apply dot_S512x384_S384x512_S512x512_1_0_0_1_n_n (some .fp32) lhs rhs (ix2 q j)).trans ?_
  rw [← Equiv.sum_comp (contrEquiv1 dot_S512x384_S384x512_S512x512_1_0_0_1_n_n 384 rfl rfl).symm]
  refine Finset.sum_congr rfl fun k _ => ?_
  have hk := contrEquiv1_symm_val dot_S512x384_S384x512_S512x512_1_0_0_1_n_n 384 rfl rfl k
  have el : dot_S512x384_S384x512_S512x512_1_0_0_1_n_n.lhsIdx (ix2 q j)
      ((contrEquiv1 dot_S512x384_S384x512_S512x512_1_0_0_1_n_n 384 rfl rfl).symm k) = ix2 q k :=
    funext fun a => Fin.ext (by
      match a with
      | ⟨0, _⟩ => exact dot_lhs_0 _ _
      | ⟨1, _⟩ => exact (dot_lhs_1 _ _).trans hk)
  have er : dot_S512x384_S384x512_S512x512_1_0_0_1_n_n.rhsIdx (ix2 q j)
      ((contrEquiv1 dot_S512x384_S384x512_S512x512_1_0_0_1_n_n 384 rfl rfl).symm k) = ix2 k j :=
    funext fun a => Fin.ext (by
      match a with
      | ⟨0, _⟩ => exact (dot_rhs_0 _ _).trans hk
      | ⟨1, _⟩ => exact dot_rhs_1 _ _)
  rw [el, er]

theorem pay_dist (x0 : Vec Ideal S512x384 .f32) (q j : Fin 512) :
    k0_pay1 (F := Ideal) x0 (ix2 q j) = dist (fun q k => x0 (ix2 q k)) q j := by
  unfold k0_pay1
  show Scalar.select (IntOp.cmpi .eq (iota .tc S512x512 32 [0] _ (ix2 q j)) (iota .tc S512x512 32 [1] _ (ix2 q j))) wBig
      (Ideal.sqrt (max (broadcastTo S512x512 _ _ (ix2 q j) + broadcastTo S512x512 _ _ (ix2 q j)
        - w2 * matmul (F := Ideal) _ _ _ _ _ (ix2 q j)) wEps)) = _
  rw [iota_single_apply, iota_single_apply, broadcastTo_a1_ab_apply, broadcastTo_1b_ab_apply, shapeCast_a_a1_apply,
    shapeCast_a_1a_apply, cmpi_eq_bit, select_ite]
  have hc : (BitVec.ofNat 32 ((ix2 q j) 0).val = BitVec.ofNat 32 ((ix2 q j) 1).val) ↔ q = j := by
    show BitVec.ofNat 32 q.val = BitVec.ofNat 32 j.val ↔ q = j
    rw [ofNat32_eq_iff _ _ (lt_trans q.isLt (by norm_num)) (lt_trans j.isLt (by norm_num)), Fin.ext_iff]
  unfold Cert.SoftRank.dist
  by_cases h : q = j
  · rw [if_pos (hc.mpr h), if_pos h]
  · rw [if_neg (mt hc.mp h), if_neg h]
    refine congrArg Ideal.sqrt (congrArg (max · wEps) (congrArg₂ (· - ·) (congrArg₂ (· + ·) ?_ ?_) (congrArg (w2 * ·) ?_)))
    · exact laneSum2_apply _ _ _ _ _ q
    · exact laneSum2_apply _ _ _ _ _ j
    · refine (matmul_qj_apply _ _ q j).trans (Finset.sum_congr rfl fun k _ => ?_)
      rw [transpose_ix2_apply]

/-! ## The precision of a block of queries -/

/-- The row index of a block: `r + 16 a` in 32-bit words is the word of `16 a + r`. -/
theorem row_word (a r : ℕ) : IntOp.addi (BitVec.ofNat 32 r) (Scalar.muli (BitVec.ofNat 32 a) 16#32) = BitVec.ofNat 32 (a * 16 + r) := by
  apply BitVec.eq_of_toNat_eq
  show (BitVec.ofNat 32 r + BitVec.ofNat 32 a * 16#32).toNat = _
  simp only [BitVec.toNat_add, BitVec.toNat_mul, BitVec.toNat_ofNat]
  omega

/-- The indicator bit — same label and not the query itself — widened and converted, is one or zero. -/
theorem mask_val (p q : Prop) [Decidable p] [Decidable q] :
    FloatOps.sitofp (F := Ideal) .f32
        ((IntOp.andi (if p then 1#1 else 0#1) (IntOp.xori (if q then 1#1 else 0#1) 1#1)).setWidth 32)
      = if p ∧ ¬q then (1 : EReal) else 0 := by
  show ((((IntOp.andi (if p then 1#1 else 0#1) (IntOp.xori (if q then 1#1 else 0#1) 1#1)).setWidth 32).toInt : ℝ) : EReal) = _
  have key : ((IntOp.andi (if p then 1#1 else 0#1) (IntOp.xori (if q then 1#1 else 0#1) 1#1)).setWidth 32).toInt
      = if p ∧ ¬q then 1 else 0 := by
    by_cases hp : p
    · by_cases hq : q
      · rw [if_pos hp, if_pos hq, if_neg (fun h => h.2 hq)]; decide
      · rw [if_pos hp, if_neg hq, if_pos ⟨hp, hq⟩]; decide
    · by_cases hq : q
      · rw [if_neg hp, if_pos hq, if_neg (fun h => hp h.1)]; decide
      · rw [if_neg hp, if_neg hq, if_neg (fun h => hp h.1)]; decide
  rw [key]
  by_cases h : p ∧ ¬q
  · rw [if_pos h, if_pos h]; simp
  · rw [if_neg h, if_neg h]; simp

/-- The indicator of the precision kernel as a vector: one where the gallery item has the query's label and is not the
    query, zero elsewhere. -/
def labelMask (i : grid1.Coords) (v32 : Vec Ideal S16x1 .i32) (v34 : Vec Ideal S1x512 .i32) : FVec Ideal S16x512 .f32 :=
  sitofp .f32 (extui 32 (andi
    (cmpi .eq (broadcastTo S16x512 (shapeCast S16x1 v32 Facts₀.shapeCasts_S16x1_S16x1 : IVec S16x1 32) Facts₀.broadcasts_S16x1_S16x512)
      (broadcastTo S16x512 (shapeCast S1x512 v34 Facts₀.shapeCasts_S1x512_S1x512 : IVec S1x512 32) Facts₀.broadcasts_S1x512_S16x512))
    (xori (cmpi .eq (addi (iota .tc S16x512 32 [0] Facts₀.iota_S16x512_d0_w32)
        (broadcast S16x512 (Scalar.muli (BitVec.ofNat 32 (i 0).val) 16#32))) (iota .tc S16x512 32 [1] Facts₀.iota_S16x512_d1_w32))
      (constantI S16x512 1 1#1))) Facts₀.natLt_1_32)

theorem labelMask_apply (i : grid1.Coords) (v32 : Vec Ideal S16x1 .i32) (v34 : Vec Ideal S1x512 .i32) (r : Fin 16) (j : Fin 512) :
    labelMask i v32 v34 (ix2 r j)
      = if v32 (ix2 r 0) = v34 (ix2 0 j) ∧ ¬ ((i 0).val * 16 + r.val = j.val) then (1 : EReal) else 0 := by
  unfold labelMask
  show FloatOps.sitofp (F := Ideal) .f32 ((IntOp.andi
      (IntOp.cmpi .eq (broadcastTo S16x512 _ _ (ix2 r j)) (broadcastTo S16x512 _ _ (ix2 r j)))
      (IntOp.xori (IntOp.cmpi .eq (IntOp.addi (iota .tc S16x512 32 [0] _ (ix2 r j)) (Scalar.muli (BitVec.ofNat 32 (i 0).val) 16#32))
        (iota .tc S16x512 32 [1] _ (ix2 r j))) 1#1)).setWidth 32) = _
  rw [broadcastTo_a1_ab_apply, broadcastTo_1b_ab_apply, shapeCast_self, shapeCast_self, iota_single_apply, iota_single_apply]
  show FloatOps.sitofp (F := Ideal) .f32 ((IntOp.andi
      (IntOp.cmpi .eq (v32 (ix2 r 0)) (v34 (ix2 0 j)))
      (IntOp.xori (IntOp.cmpi .eq (IntOp.addi (BitVec.ofNat 32 r.val) (Scalar.muli (BitVec.ofNat 32 (i 0).val) 16#32))
        (BitVec.ofNat 32 j.val)) 1#1)).setWidth 32) = _
  rw [row_word, cmpi_eq_bit, cmpi_eq_bit, mask_val]
  have hi : (i 0).val < 32 := (i 0).isLt
  have hc : (BitVec.ofNat 32 ((i 0).val * 16 + r.val) = BitVec.ofNat 32 j.val) ↔ ((i 0).val * 16 + r.val = j.val) :=
    ofNat32_eq_iff _ _ (by have := r.isLt; omega) (lt_trans j.isLt (by norm_num))
  simp only [hc]

theorem pay_prec (i : grid1.Coords) (x31 : Vec Ideal S16x512 .f32) (x32 : Vec Ideal S16x1 .i32) (x34 : Vec Ideal S1x512 .i32)
    (r : Fin 16) :
    k1_pay3 (F := Ideal) i x31 x32 x34 (ix2 r 0)
      = Ideal.div (∑ j : Fin 512, sigT wHalf (w5 - x31 (ix2 r j))
            * (if x32 (ix2 r 0) = x34 (ix2 0 j) ∧ ¬ ((i 0).val * 16 + r.val = j.val) then 1 else 0))
          (min (∑ j : Fin 512, (if x32 (ix2 r 0) = x34 (ix2 0 j) ∧ ¬ ((i 0).val * 16 + r.val = j.val) then (1 : EReal) else 0)) w5) := by
  unfold k1_pay3
  show Ideal.div (shapeCast S16x1 (multiReduction .add [1] S16 (mulf _ (labelMask i x32 x34)) 0x00000000#32 _ _ _) _ (ix2 r 0))
      (min (shapeCast S16x1 (multiReduction .add [1] S16 (labelMask i x32 x34) 0x00000000#32 _ _ _) _ (ix2 r 0)) w5) = _
  rw [shapeCast_a_a1_apply, shapeCast_a_a1_apply]
  refine congrArg₂ Ideal.div ?_ (congrArg (min · w5) ?_)
  · refine (laneSum2_apply _ _ _ _ _ r).trans (Finset.sum_congr rfl fun j _ => ?_)
    rw [mulf_apply, labelMask_apply]
    rfl
  · refine (laneSum2_apply _ _ _ _ _ r).trans (Finset.sum_congr rfl fun j _ => ?_)
    exact labelMask_apply i x32 x34 r j

end Cert.KernelIdeal.PayVal

end
-- ==== Proof.DistValue.lean ====
/-
  What the distance launch leaves in its output array: the matrix of pairwise distances of the embedding array it
  found. The launch has one grid point, whose output block is the whole array; the body's payload at an index is
  the specification's `dist` (Payloads), and the input block it read is the whole embedding array.
-/
import proofs.«172753_j3066606649434_2_alg».proof.Proof.DistBody
import proofs.«172753_j3066606649434_2_alg».proof.Proof.Spec
import proofs.«172753_j3066606649434_2_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

variable (V : (c : Dev nD) → (b : Ref sig .tc) → Buf (Elt Ideal) ((c : Thread nD τ).loc b))

/-- The distance matrix of the embedding array the launch finds, as one array. -/
def distArr (c : Dev nD) : S512x512.Idx → EReal :=
  fun i => Cert.SoftRank.dist (fun q k => V c main_arg0 (ix2 q k)) ⟨(i 0).val, (i 0).isLt⟩ ⟨(i 1).val, (i 1).isLt⟩

theorem zero2 : (![0, 0] : Fin 2 → Nat) = fun _ => 0 := funext fun a => by fin_cases a <;> rfl

/-- The distance launch's one grid point has both windows at block (0, 0). -/
theorem dist_index : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the distance launch's point writes back is the block of the distance matrix it names (the whole of it). -/
theorem dist_flushed (c : Dev nD) (t : Fin cfg0.N) :
    (dat0 (F := Ideal) V c).flushed 1 t = ((cfg0.win 1).blk t).view.read (Elt Ideal) (distArr V c) := by
  show (cfg0.win 1).cut (grid0.coords t) ((dat0 V c).after 1 t) = _
  rw [after0_1]; unfold distOut
  rw [View.canon_unit_zero zero2]
  simp only [View.ld_unit_zero (S := S512x384) zero2]
  obtain ⟨e0, e1, e2, e3⟩ := dist_index t
  funext j
  obtain ⟨q, r, rfl⟩ : ∃ (q : Fin 512) (r : Fin 512), j = ix2 q r := ⟨j 0, j 1, eq_ix2 j⟩
  show k0_pay1 (F := Ideal) (iblk0 V c 0 t) (ix2 q r) = distArr V c (((cfg0.win 1).blk t).view.emb (ix2 q r))
  rw [Cert.KernelIdeal.PayVal.pay_dist]
  have hemb : ((cfg0.win 1).blk t).view.emb (ix2 q r) = ix2 q r := by
    funext a; apply Fin.ext
    match a with
    | ⟨0, _⟩ => show win0_1.index t (0 : Fin 2) * 512 + 1 * q.val = q.val; omega
    | ⟨1, _⟩ => show win0_1.index t (1 : Fin 2) * 512 + 1 * r.val = r.val; omega
  rw [hemb]
  have hblk : (fun (q : Fin 512) (k : Fin 384) => iblk0 V c 0 t (ix2 q k)) = fun q k => V c main_arg0 (ix2 q k) := by
    funext q k
    show V c main_arg0 (((cfg0.win 0).blk t).view.emb (ix2 q k)) = V c main_arg0 (ix2 q k)
    refine congrArg _ ?_
    funext a; apply Fin.ext
    match a with
    | ⟨0, _⟩ => show win0_0.index t (0 : Fin 2) * 512 + 1 * q.val = q.val; omega
    | ⟨1, _⟩ => show win0_0.index t (1 : Fin 2) * 384 + 1 * k.val = k.val; omega
  rw [hblk]; rfl

/-- That block is the whole array. -/
theorem dist_cover (c : Dev nD) (i : S512x512.Idx) :
    ∃ t : Fin cfg0.N, (cfg0.win 1).flush t = true ∧ i ∈ ((cfg0.win 1).blk t).view.set := by
  refine ⟨t0_0, flush0_1 _, ?_⟩
  obtain ⟨-, -, e2, e3⟩ := dist_index t0_0
  show i ∈ ((View.whole main_v0).slice (win0_1.rect t0_0)).set
  rw [View.set_slice_whole, Rect.mem_set_unit]
  intro a
  have h0 : (i 0).val < 512 := (i 0).isLt
  have h1 : (i 1).val < 512 := (i 1).isLt
  match a with
  | ⟨0, _⟩ => show win0_1.index t0_0 (0 : Fin 2) * 512 ≤ (i 0).val ∧ (i 0).val < win0_1.index t0_0 (0 : Fin 2) * 512 + 512; omega
  | ⟨1, _⟩ => show win0_1.index t0_0 (1 : Fin 2) * 512 ≤ (i 1).val ∧ (i 1).val < win0_1.index t0_0 (1 : Fin 2) * 512 + 512; omega

/-- After the distance launch its output array holds the distance matrix of the embedding array it found. -/
theorem dist_array (c : Dev nD) : (dat0 (F := Ideal) V c).arrAt 1 cfg0.N = distArr V c :=
  (dat0 V c).arrAt_eq_of_cover 1 (distArr V c) (fun t _ => dist_flushed V c t) (dist_cover c)

end Cert.KernelIdeal.Hand

end
-- ==== Proof.RankPieces.lean ====
/-
  What the rank kernel's found writes are, in terms of the body's arithmetic.

  Each run leaves a buffer as a list of whole-buffer writes; read back, such a list is its last write's
  payload. The payloads are the body's arithmetic applied to what its loads read: a load of a whole
  buffer reads the buffer's contents, the load of the column slice reads the 16 × 128 slice of the
  distance block at the point's column offset, and a load of the accumulator after a whole-buffer write
  reads that write's payload. So:
  * at a point ≡ 0 (mod 4) the accumulator ends as the partial sums of the point's tile added to zeros;
  * at any other point it ends as the partial sums added to what the point before left;
  * at a point ≡ 3 (mod 4) the output block ends as the precisions computed from the finished
    accumulator and the two label blocks.
-/
import proofs.«172753_j3066606649434_2_alg».proof.Proof.RankBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- The zero offsets of a whole-buffer access, as the constant function. -/
theorem zeros2 : (![0, 0] : Fin 2 → ℕ) = fun _ => 0 := by funext a; fin_cases a <;> rfl

/-- After a reset point the accumulator holds the tile's partial sums over zeros. -/
theorem scratch_A (c : Dev nD) (t : Fin cfg1.N) (h : t.val % 4 = 0) :
    (outsAt1 V c t.val t.isLt).2
      = k1_pay2 (iblk1 V c 0 t)
          (View.ld (iblk1 V c 0 t : Vec F S16x512 .f32) (Rect.unit (s := S16x512) (k1_off1 (grid1.coords t)) S16x128.size (k1_off1_inb (grid1.coords t))))
          (k1_pay1 (F := F)) := by
  rw [outsAt1_start V c t h]
  dsimp only
  unfold startAcc
  rw [View.read_writes_eq_canon _ _ _ (startCover V c t h)]
  unfold startRun runStart
  dsimp only
  sl_unfold_words
  rw [View.canon_cons_unit_zero zeros2]
  simp only [View.readAt_eq_ld, (hs1_0 t).read_unread, View.ld_unit_zero (S := S16x512) zeros2,
    View.readCov_unit_zero (S := S16x512) _ zeros2]
  rfl

/-- After any other point it holds the tile's partial sums over what the point before left. -/
theorem scratch_BC (c : Dev nD) (t : Fin cfg1.N) (h : t.val % 4 ≠ 0) :
    (outsAt1 V c t.val t.isLt).2
      = k1_pay2 (iblk1 V c 0 t)
          (View.ld (iblk1 V c 0 t : Vec F S16x512 .f32) (Rect.unit (s := S16x512) (k1_off1 (grid1.coords t)) S16x128.size (k1_off1_inb (grid1.coords t))))
          (outsAt1 V c (t.val - 1) (by have := t.isLt; omega)).2 := by
  by_cases h3 : t.val % 4 = 3
  · rw [outsAt1_end V c t h3]
    dsimp only
    unfold endAcc
    rw [View.read_writes_eq_canon _ _ _ (endCoverAcc V c t h3 _)]
    unfold endRun runEnd
    dsimp only
    sl_unfold_words
    rw [View.canon_unit_zero zeros2]
    simp only [View.readAt_eq_ld, (hs1_0 t).read_unread, (Memref.isWhole_whole cc1_scratch0).read_unread,
      View.ld_unit_zero (S := S16x512) zeros2]
    rfl
  · rw [outsAt1_inner V c t h h3]
    dsimp only
    unfold innerAcc
    rw [View.read_writes_eq_canon _ _ _ (innerCover V c t h h3 _)]
    unfold innerRun runInner
    dsimp only
    sl_unfold_words
    rw [View.canon_unit_zero zeros2]
    simp only [View.readAt_eq_ld, (hs1_0 t).read_unread, (Memref.isWhole_whole cc1_scratch0).read_unread,
      View.ld_unit_zero (S := S16x512) zeros2]
    rfl

/-- After a row's last point the output block holds the precisions of the finished accumulator. -/
theorem out_C (c : Dev nD) (t : Fin cfg1.N) (h : t.val % 4 = 3) :
    (outsAt1 V c t.val t.isLt).1
      = k1_pay3 (grid1.coords t) (outsAt1 V c t.val t.isLt).2 (iblk1 V c 1 t) (iblk1 V c 2 t) := by
  rw [outsAt1_end V c t h]
  dsimp only
  unfold endOut endAcc
  rw [View.read_writes_eq_canon _ _ _ (endCoverOut V c t h _), View.read_writes_eq_canon _ _ _ (endCoverAcc V c t h _)]
  unfold endRun runEnd
  dsimp only
  sl_unfold_words
  rw [View.canon_unit_zero zeros2, View.canon_unit_zero zeros2]
  simp only [View.readAt_eq_ld, (hs1_0 t).read_unread, (hs1_1 t).read_unread, (hs1_2 t).read_unread,
    (Memref.isWhole_whole cc1_scratch0).read_unread,
    View.ld_unit_zero (S := S16x512) zeros2, View.ld_unit_zero (S := S16x1) zeros2, View.ld_unit_zero (S := S1x512) zeros2,
    View.readCov_unit_zero (S := S16x512) _ zeros2]

end

end Cert.KernelIdeal.Hand

end
-- ==== Proof.Algebra.lean ====
/-
  The algebra joining the two spellings of the logistic step, the constants as reals, and the
  splitting of a sum over 512 columns into four tiles of 128.
-/
import proofs.«172753_j3066606649434_2_alg».proof.Proof.Spec

noncomputable section

namespace Cert.SoftRank

open Idealize.ShloMosaic

/-! ## The words as reals -/

/-- The temperature word denotes 5368709 / 2²⁹ (the float nearest 0.01). -/
theorem wT_eq : wT = ((5368709 / 536870912 : ℝ) : EReal) := by
  simp [wT, Ideal.ofBits, Ideal.ieee, -EReal.coe_mul]; norm_num

theorem w1_eq : w1 = ((1 : ℝ) : EReal) := by
  simp [w1, Ideal.ofBits, Ideal.ieee, -EReal.coe_mul]; norm_num

theorem wHalf_eq : wHalf = ((1 / 2 : ℝ) : EReal) := by
  simp [wHalf, Ideal.ofBits, Ideal.ieee, -EReal.coe_mul]; norm_num

theorem w0_eq : w0 = 0 := by
  simp [w0, Ideal.ofBits, Ideal.ieee]

/-! ## The logistic step, two ways -/

/-- Over the reals: `½ tanh (r k) + ½ = 1 / (1 + exp (−r / T))` when `k = 1 / (2 T)`. With
    `a = exp (r k)`, the left side is `a / (a + a⁻¹)` and `exp (−r / T) = a⁻¹ · a⁻¹`. -/
theorem real_sig (T k r : ℝ) (hT : 0 < T) (hk : k = 1 / (2 * T)) :
    1 / 2 * Real.tanh (r * k) + 1 / 2 = (1 + Real.exp (-(r / T)))⁻¹ := by
  have h2 : r / T = 2 * (r * k) := by
    subst hk; field_simp
  rw [h2]
  generalize r * k = y
  have hsplit : Real.exp (-(2 * y)) = Real.exp (-y) * Real.exp (-y) := by
    rw [← Real.exp_add]; ring_nf
  have hpos : 0 < Real.exp y := Real.exp_pos y
  rw [Real.tanh_eq_sinh_div_cosh, Real.sinh_eq, Real.cosh_eq, hsplit, Real.exp_neg y]
  field_simp
  ring

/-- The two spellings agree on every extended real, the infinities included: at `⊥` both are
    `0`, at `⊤` both are `1`. -/
theorem sig_core (T k : ℝ) (hT : 0 < T) (hk : k = 1 / (2 * T)) (x : EReal) :
    ((1 / 2 : ℝ) : EReal) * Ideal.tanh (x * (k : EReal)) + ((1 / 2 : ℝ) : EReal)
      = Ideal.div 1 (1 + Ideal.exp (-(Ideal.div x (T : EReal)))) := by
  have hkpos : 0 < k := by subst hk; positivity
  have hTinv : (0 : ℝ) < 1 / T := by positivity
  rw [Ideal.div_coe hT.ne']
  induction x using EReal.rec with
  | bot =>
    rw [EReal.bot_mul_coe_of_pos hkpos, EReal.bot_mul_coe_of_pos hTinv, Ideal.tanh_bot,
      EReal.neg_bot, Ideal.exp_top,
      EReal.add_top_of_ne_bot (show (1 : EReal) ≠ ⊥ from EReal.coe_ne_bot 1)]
    have h1 : Ideal.div 1 ⊤ = 0 := by simp [Ideal.div]
    rw [h1, ← EReal.coe_one, ← EReal.coe_neg, ← EReal.coe_mul, ← EReal.coe_add]
    norm_num
  | top =>
    rw [EReal.top_mul_coe_of_pos hkpos, EReal.top_mul_coe_of_pos hTinv, Ideal.tanh_top,
      EReal.neg_top, Ideal.exp_bot, add_zero]
    have h1 : Ideal.div 1 1 = 1 := by simp [Ideal.div]
    rw [h1, mul_one, ← EReal.coe_add]
    norm_num
  | coe r =>
    have hne : ((1 + Real.exp (-(r * (1 / T))) : ℝ) : EReal) ≠ 0 := by
      have : (0 : ℝ) < 1 + Real.exp (-(r * (1 / T))) := by positivity
      exact_mod_cast this.ne'
    have h : (1 : EReal) + Ideal.exp (-((r : EReal) * ((1 / T : ℝ) : EReal)))
        = ((1 + Real.exp (-(r * (1 / T))) : ℝ) : EReal) := by
      rw [← EReal.coe_mul, ← EReal.coe_neg, Ideal.exp_coe, ← EReal.coe_one, ← EReal.coe_add]
    rw [h, Ideal.div, if_neg hne, one_mul, ← EReal.coe_inv, ← EReal.coe_mul, Ideal.tanh_coe,
      ← EReal.coe_mul, ← EReal.coe_add]
    congr 1
    have := real_sig T k r hT hk
    rw [this]; congr 3; ring

/-- The rank kernel's step `½ tanh (x · kap) + ½` is the reference's `1 / (1 + exp (−x / T))`. -/
theorem sig_rank (x : EReal) : sigT kap x = sigE wT x := by
  unfold sigT sigE
  rw [wHalf_eq, w1_eq, wT_eq, kap, EReal.coe_one]
  exact sig_core (5368709 / 536870912) (268435456 / 5368709) (by norm_num) (by norm_num) x

/-- The precision's step `½ tanh (x · ½) + ½` is `1 / (1 + exp (−x / 1))`. -/
theorem sig_gate (x : EReal) : sigT wHalf x = sigE w1 x := by
  unfold sigT sigE
  rw [wHalf_eq, w1_eq, EReal.coe_one]
  have h := sig_core 1 (1 / 2) (by norm_num) (by norm_num) x
  rw [EReal.coe_one] at h
  exact h

/-! ## A sum over 512 columns as four tiles of 128 -/

/-- The left-nested accumulation of four tile sums, starting from zero, is the sum over all 512
    columns: column `m` of tile `t` is column `t · 128 + m`. -/
theorem sum_tiles (f : Fin 512 → EReal) :
    (((((0 : EReal) + ∑ m : Fin 128, f ⟨0 * 128 + m.val, by omega⟩)
        + ∑ m : Fin 128, f ⟨1 * 128 + m.val, by omega⟩)
        + ∑ m : Fin 128, f ⟨2 * 128 + m.val, by omega⟩)
        + ∑ m : Fin 128, f ⟨3 * 128 + m.val, by omega⟩) = ∑ m : Fin 512, f m := by
  have hsplit : ∑ m : Fin 512, f m
      = ∑ t : Fin 4, ∑ m : Fin 128, f ⟨t.val * 128 + m.val, by omega⟩ := by
    rw [← Fintype.sum_prod_type']
    refine (Fintype.sum_equiv (finProdFinEquiv (m := 4) (n := 128)) _ _ ?_).symm
    rintro ⟨t, m⟩
    congr 1
    apply Fin.ext
    simp [finProdFinEquiv]
    omega
  rw [hsplit, Fin.sum_univ_four, zero_add]
  rfl

end Cert.SoftRank

end
-- ==== Proof.RankMath.lean ====
/-
  The rank kernel's arithmetic over one block of sixteen query rows: four tile contributions add up to the
  soft rank, and the masked, capped quotient is the soft precision at five.
-/
import proofs.«172753_j3066606649434_2_alg».proof.Proof.Spec
import proofs.«172753_j3066606649434_2_alg».proof.Proof.Algebra
import proofs.«172753_j3066606649434_2_alg».proof.Proof.Payloads

noncomputable section

namespace Cert.KernelIdeal.Hand

open Cert.KernelIdeal Cert.KernelIdeal.Gen Idealize.ShloMosaic Idealize.ShloMosaic.ValueIdx

/-- After the reset and the four tile steps, the accumulator row `r` holds at column `j` the sum over all
    512 gallery columns `k` of the logistic step of `(x r j − x r k) / T`: each tile adds the 128 terms of its
    columns, and the tanh spelling of the step is the quotient spelling. -/
theorem acc_rows (x : Vec Ideal S16x512 .f32) (s0 s1 s2 s3 : Vec Ideal S16x128 .f32)
    (h0 : ∀ (r : Fin 16) (k : Fin 128), s0 (ix2 r k) = x (ix2 r ⟨0 * 128 + k.val, by omega⟩))
    (h1 : ∀ (r : Fin 16) (k : Fin 128), s1 (ix2 r k) = x (ix2 r ⟨1 * 128 + k.val, by omega⟩))
    (h2 : ∀ (r : Fin 16) (k : Fin 128), s2 (ix2 r k) = x (ix2 r ⟨2 * 128 + k.val, by omega⟩))
    (h3 : ∀ (r : Fin 16) (k : Fin 128), s3 (ix2 r k) = x (ix2 r ⟨3 * 128 + k.val, by omega⟩)) (r : Fin 16) (j : Fin 512) :
    k1_pay2 (F := Ideal) x s3 (k1_pay2 x s2 (k1_pay2 x s1 (k1_pay2 x s0 (k1_pay1 (F := Ideal))))) (ix2 r j)
      = ∑ k : Fin 512, Cert.SoftRank.sigE Cert.SoftRank.wT (x (ix2 r j) - x (ix2 r k)) := by
  refine Eq.trans ?_ ((Cert.SoftRank.sum_tiles
    (fun k => Cert.SoftRank.sigT Cert.SoftRank.kap (x (ix2 r j) - x (ix2 r k)))).trans
      (Finset.sum_congr rfl fun k _ => Cert.SoftRank.sig_rank _))
  rw [Cert.KernelIdeal.PayVal.pay_acc, Cert.KernelIdeal.PayVal.pay_acc, Cert.KernelIdeal.PayVal.pay_acc,
    Cert.KernelIdeal.PayVal.pay_acc, Cert.KernelIdeal.PayVal.pay_zero]
  simp only [h0, h1, h2, h3]

/-- The precision payload of row `r` of block `i`, whose accumulator row holds the soft ranks of query
    `q = 16 i + r` and whose label blocks hold the labels, is the soft precision at five of `q`: the indicator
    "same label and not the query" is the specification's, and the tanh spelling of the step at temperature one
    is the quotient spelling. -/
theorem prec_row (i : grid1.Coords) (acc : Vec Ideal S16x512 .f32) (x32 : Vec Ideal S16x1 .i32) (x34 : Vec Ideal S1x512 .i32)
    (lab : Fin 512 → BitVec 32) (D : Fin 512 → Fin 512 → EReal) (r : Fin 16) (q : Fin 512)
    (hq : q.val = (i 0).val * 16 + r.val) (hacc : ∀ j : Fin 512, acc (ix2 r j) = Cert.SoftRank.rank D q j)
    (h32 : x32 (ix2 r 0) = lab q) (h34 : ∀ j : Fin 512, x34 (ix2 0 j) = lab j) :
    k1_pay3 (F := Ideal) i acc x32 x34 (ix2 r 0) = Cert.SoftRank.prec lab D q := by
  have hg : ∀ j : Fin 512,
      (if x32 (ix2 r 0) = x34 (ix2 0 j) ∧ ¬ ((i 0).val * 16 + r.val = j.val) then (1 : EReal) else 0)
        = Cert.SoftRank.gt lab q j := by
    intro j
    have hiff : (x32 (ix2 r 0) = x34 (ix2 0 j) ∧ ¬ ((i 0).val * 16 + r.val = j.val)) ↔ (lab q = lab j ∧ q ≠ j) := by
      rw [h32, h34, ← hq, ne_eq, Fin.ext_iff]
    unfold Cert.SoftRank.gt
    by_cases hc : lab q = lab j ∧ q ≠ j
    · rw [if_pos hc, if_pos (hiff.mpr hc)]
    · rw [if_neg hc, if_neg (mt hiff.mp hc)]
  rw [Cert.KernelIdeal.PayVal.pay_prec]
  unfold Cert.SoftRank.prec
  refine congrArg₂ Ideal.div (Finset.sum_congr rfl fun j _ => ?_)
    (congrArg (min · Cert.SoftRank.w5) (Finset.sum_congr rfl fun j _ => hg j))
  rw [Cert.SoftRank.sig_gate, hacc, hg j]

end Cert.KernelIdeal.Hand

end
-- ==== Proof.RankValue.lean ====
/-
  What the rank launch leaves in its output array. The launch's grid is 32 rows of 4 points: row `b` works on
  queries `16 b … 16 b + 15`, its four points on the four gallery tiles of 128. Along a row the accumulator
  collects, tile by tile, the sum over the gallery of the soft step of distance differences — after the fourth
  tile, the soft rank of every gallery item for each of the 16 queries (RankMath: four partial sums are the whole
  sum, and the two spellings of the soft step agree). The row's last point turns the ranks into the 16 queries'
  soft precision and stores them as the output block, which is the only block of the row written back. The 32
  blocks tile the output array, so it ends holding the precision vector.
-/
import proofs.«172753_j3066606649434_2_alg».proof.Proof.RankBody
import proofs.«172753_j3066606649434_2_alg».proof.Proof.RankPieces
import proofs.«172753_j3066606649434_2_alg».proof.Proof.RankMath
import proofs.«172753_j3066606649434_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

variable (V : (c : Dev nD) → (b : Ref sig .tc) → Buf (Elt Ideal) ((c : Thread nD τ).loc b))

/-- The distance matrix the rank launch finds, by row and column. -/
def distOf (c : Dev nD) : Fin 512 → Fin 512 → EReal := fun q j => V c main_v0 (ix2 q j)

/-- The precision vector of the arrays the rank launch finds, for labels `lab`. -/
def precArr (lab : Fin 512 → BitVec 32) (c : Dev nD) : S512x1.Idx → EReal :=
  fun i => Cert.SoftRank.prec lab (distOf V c) ⟨(i 0).val, (i 0).isLt⟩

/-- The rank launch's grid: point `t` is query block `t / 4`, gallery tile `t % 4`. Its windows' block indices and
    the offset of the gallery tile the body loads, decided over the 128 points. -/
theorem rank_index : ∀ t : Fin cfg1.N,
    win1_0.index t (0 : Fin 2) = t.val / 4 ∧ win1_0.index t (1 : Fin 2) = 0
    ∧ win1_1.index t (0 : Fin 2) = t.val / 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ ((grid1.coords t) 0).val = t.val / 4
    ∧ k1_off1 (grid1.coords t) (0 : Fin 2) = 0 ∧ k1_off1 (grid1.coords t) (1 : Fin 2) = (t.val % 4) * 128 :=
  (by decide +kernel : ∀ t : Fin grid1.N, _)

/-- The tile of a 16 × 512 block the body loads at point `t`. -/
abbrev tileOf (t : Fin cfg1.N) (x : Vec Ideal S16x512 .f32) : Vec Ideal S16x128 .f32 :=
  View.ld x (Rect.unit (s := S16x512) (k1_off1 (grid1.coords t)) S16x128.size (k1_off1_inb (grid1.coords t)))

/-- Block `t` of the distance window is rows `16 (t/4) …` of the distance matrix, all 512 columns. -/
theorem blk_dist (c : Dev nD) (t : Fin cfg1.N) (r : Fin 16) (j : Fin 512) :
    iblk1 V c 0 t (ix2 r j) = distOf V c ⟨t.val / 4 * 16 + r.val, by have := t.isLt; have hN : cfg1.N = 128 := N_1; omega⟩ j := by
  obtain ⟨e0, e1, -⟩ := rank_index t
  show V c main_v0 (((cfg1.win 0).blk t).view.emb (ix2 r j)) = V c main_v0 (ix2 _ j)
  refine congrArg _ ?_
  funext a; apply Fin.ext
  match a with
  | ⟨0, _⟩ => show win1_0.index t (0 : Fin 2) * 16 + 1 * r.val = t.val / 4 * 16 + r.val; omega
  | ⟨1, _⟩ => show win1_0.index t (1 : Fin 2) * 512 + 1 * j.val = j.val; omega

/-- Block `t` of the column-of-labels window is rows `16 (t/4) …` of that column. -/
theorem blk_labcol (c : Dev nD) (t : Fin cfg1.N) (r : Fin 16) :
    iblk1 V c 1 t (ix2 r 0) = V c main_v1 (ix2 ⟨t.val / 4 * 16 + r.val, by have := t.isLt; have hN : cfg1.N = 128 := N_1; omega⟩ 0) := by
  obtain ⟨-, -, e0, e1, -⟩ := rank_index t
  show V c main_v1 (((cfg1.win 1).blk t).view.emb (ix2 r 0)) = V c main_v1 (ix2 _ 0)
  refine congrArg _ ?_
  funext a; apply Fin.ext
  match a with
  | ⟨0, _⟩ => show win1_1.index t (0 : Fin 2) * 16 + 1 * r.val = t.val / 4 * 16 + r.val; omega
  | ⟨1, _⟩ => show win1_1.index t (1 : Fin 2) * 1 + 1 * 0 = 0; omega

/-- The row-of-labels window's block is the whole row at every point. -/
theorem blk_labrow (c : Dev nD) (t : Fin cfg1.N) (j : Fin 512) :
    iblk1 V c 2 t (ix2 0 j) = V c main_v2 (ix2 0 j) := by
  obtain ⟨-, -, -, -, e0, e1, -⟩ := rank_index t
  show V c main_v2 (((cfg1.win 2).blk t).view.emb (ix2 0 j)) = V c main_v2 (ix2 0 j)
  refine congrArg _ ?_
  funext a; apply Fin.ext
  match a with
  | ⟨0, _⟩ => show win1_2.index t (0 : Fin 2) * 1 + 1 * 0 = 0; omega
  | ⟨1, _⟩ => show win1_2.index t (1 : Fin 2) * 512 + 1 * j.val = j.val; omega

/-- The tile loaded at point `t` is columns `128 (t % 4) …` of the block. -/
theorem tile_apply (t : Fin cfg1.N) (x : Vec Ideal S16x512 .f32) (r : Fin 16) (k : Fin 128) :
    tileOf t x (ix2 r k) = x (ix2 r ⟨t.val % 4 * 128 + k.val, by omega⟩) := by
  obtain ⟨-, -, -, -, -, -, -, -, -, o0, o1⟩ := rank_index t
  show x ((Rect.unit (s := S16x512) (k1_off1 (grid1.coords t)) S16x128.size (k1_off1_inb (grid1.coords t))).emb (ix2 r k)) = x (ix2 r _)
  refine congrArg _ ?_
  funext a; apply Fin.ext
  match a with
  | ⟨0, _⟩ => show k1_off1 (grid1.coords t) (0 : Fin 2) + 1 * r.val = r.val; omega
  | ⟨1, _⟩ => show k1_off1 (grid1.coords t) (1 : Fin 2) + 1 * k.val = t.val % 4 * 128 + k.val; omega

/-- The 16 rows of the distance matrix that query block `b` works on. -/
def rowsOf (c : Dev nD) (b : ℕ) (hb : b < 32) : Vec Ideal S16x512 .f32 :=
  fun y => distOf V c ⟨b * 16 + (y 0).val, by have := (y 0).isLt; have h : (y 0).val < 16 := this; omega⟩ ⟨(y 1).val, (y 1).isLt⟩

theorem iblk_rows (c : Dev nD) (t : Fin cfg1.N) (b : ℕ) (hb : b < 32) (h : t.val / 4 = b) :
    iblk1 V c 0 t = rowsOf V c b hb := by
  subst h
  funext y
  obtain ⟨r, j, rfl⟩ : ∃ (r : Fin 16) (j : Fin 512), y = ix2 r j := ⟨y 0, y 1, eq_ix2 y⟩
  exact blk_dist V c t r j

section WithRuns
/- What the body leaves point by point, as the per-point half states it: the accumulator after the first point of a
   row of four, after a later point, and the output block at the last. -/
variable (c : Dev nD) (O : (n : ℕ) → n < cfg1.N → Vec Ideal S16x1 .f32 × Vec Ideal S16x512 .f32)
  (hA : ∀ t : Fin cfg1.N, t.val % 4 = 0 → (O t.val t.isLt).2 = k1_pay2 (F := Ideal) (iblk1 V c 0 t) (tileOf t (iblk1 V c 0 t)) (k1_pay1 (F := Ideal)))
  (hBC : ∀ t : Fin cfg1.N, (h : t.val % 4 ≠ 0) → (O t.val t.isLt).2 = k1_pay2 (F := Ideal) (iblk1 V c 0 t) (tileOf t (iblk1 V c 0 t)) (O (t.val - 1) (by have := t.isLt; omega)).2)
  (hC : ∀ t : Fin cfg1.N, t.val % 4 = 3 → (O t.val t.isLt).1 = k1_pay3 (F := Ideal) (grid1.coords t) (O t.val t.isLt).2 (iblk1 V c 1 t) (iblk1 V c 2 t))
  (acc_rows : ∀ (x : Vec Ideal S16x512 .f32) (s0 s1 s2 s3 : Vec Ideal S16x128 .f32)
      (h0 : ∀ (r : Fin 16) (k : Fin 128), s0 (ix2 r k) = x (ix2 r ⟨0 * 128 + k.val, by omega⟩))
      (h1 : ∀ (r : Fin 16) (k : Fin 128), s1 (ix2 r k) = x (ix2 r ⟨1 * 128 + k.val, by omega⟩))
      (h2 : ∀ (r : Fin 16) (k : Fin 128), s2 (ix2 r k) = x (ix2 r ⟨2 * 128 + k.val, by omega⟩))
      (h3 : ∀ (r : Fin 16) (k : Fin 128), s3 (ix2 r k) = x (ix2 r ⟨3 * 128 + k.val, by omega⟩)) (r : Fin 16) (j : Fin 512),
      k1_pay2 (F := Ideal) x s3 (k1_pay2 x s2 (k1_pay2 x s1 (k1_pay2 x s0 (k1_pay1 (F := Ideal))))) (ix2 r j)
        = ∑ k : Fin 512, Cert.SoftRank.sigE Cert.SoftRank.wT (x (ix2 r j) - x (ix2 r k)))

include hA hBC acc_rows in
/-- THE ACCUMULATOR AT A ROW'S END: after the fourth gallery tile the accumulator holds, for each of the block's 16
    queries, the soft rank of every gallery item. -/
theorem acc_at_end (t : Fin cfg1.N) (h3 : t.val % 4 = 3) (r : Fin 16) (j : Fin 512) :
    (O t.val t.isLt).2 (ix2 r j)
      = Cert.SoftRank.rank (distOf V c) ⟨t.val / 4 * 16 + r.val, by have := t.isLt; have hN : cfg1.N = 128 := N_1; omega⟩ j := by
  have hN : cfg1.N = 128 := N_1
  have ht := t.isLt
  have hb : t.val / 4 < 32 := by omega
  let t1 : Fin cfg1.N := ⟨t.val - 1, by omega⟩
  let t2 : Fin cfg1.N := ⟨t.val - 2, by omega⟩
  let t3 : Fin cfg1.N := ⟨t.val - 3, by omega⟩
  have e0 : (O t.val t.isLt).2 = k1_pay2 (F := Ideal) (iblk1 V c 0 t) (tileOf t (iblk1 V c 0 t)) (O t1.val t1.isLt).2 :=
    hBC t (by omega)
  have e1 : (O t1.val t1.isLt).2 = k1_pay2 (F := Ideal) (iblk1 V c 0 t1) (tileOf t1 (iblk1 V c 0 t1)) (O t2.val t2.isLt).2 := by
    have := hBC t1 (by show (t.val - 1) % 4 ≠ 0; omega)
    exact this.trans (by congr 2 <;> (show t.val - 1 - 1 = t.val - 2; omega))
  have e2 : (O t2.val t2.isLt).2 = k1_pay2 (F := Ideal) (iblk1 V c 0 t2) (tileOf t2 (iblk1 V c 0 t2)) (O t3.val t3.isLt).2 := by
    have := hBC t2 (by show (t.val - 2) % 4 ≠ 0; omega)
    exact this.trans (by congr 2 <;> (show t.val - 2 - 1 = t.val - 3; omega))
  have e3 : (O t3.val t3.isLt).2 = k1_pay2 (F := Ideal) (iblk1 V c 0 t3) (tileOf t3 (iblk1 V c 0 t3)) (k1_pay1 (F := Ideal)) :=
    hA t3 (by show (t.val - 3) % 4 = 0; omega)
  rw [e0, e1, e2, e3,
    iblk_rows V c t _ hb rfl, iblk_rows V c t1 _ hb (by show (t.val - 1) / 4 = t.val / 4; omega),
    iblk_rows V c t2 _ hb (by show (t.val - 2) / 4 = t.val / 4; omega), iblk_rows V c t3 _ hb (by show (t.val - 3) / 4 = t.val / 4; omega)]
  refine (acc_rows (rowsOf V c (t.val / 4) hb) _ _ _ _ ?_ ?_ ?_ ?_ r j).trans rfl
  · intro r k; refine (tile_apply t3 _ r k).trans (congrArg _ ?_)
    refine congrArg (ix2 r) (Fin.ext ?_); show (t.val - 3) % 4 * 128 + k.val = 0 * 128 + k.val; omega
  · intro r k; refine (tile_apply t2 _ r k).trans (congrArg _ ?_)
    refine congrArg (ix2 r) (Fin.ext ?_); show (t.val - 2) % 4 * 128 + k.val = 1 * 128 + k.val; omega
  · intro r k; refine (tile_apply t1 _ r k).trans (congrArg _ ?_)
    refine congrArg (ix2 r) (Fin.ext ?_); show (t.val - 1) % 4 * 128 + k.val = 2 * 128 + k.val; omega
  · intro r k; refine (tile_apply t _ r k).trans (congrArg _ ?_)
    refine congrArg (ix2 r) (Fin.ext ?_); show t.val % 4 * 128 + k.val = 3 * 128 + k.val; omega

end WithRuns

section WithRuns2
variable (c : Dev nD) (O : (n : ℕ) → n < cfg1.N → Vec Ideal S16x1 .f32 × Vec Ideal S16x512 .f32)
  (hEnd : ∀ (t : Fin cfg1.N) (h3 : t.val % 4 = 3) (r : Fin 16) (j : Fin 512), (O t.val t.isLt).2 (ix2 r j)
      = Cert.SoftRank.rank (distOf V c) ⟨t.val / 4 * 16 + r.val, by have := t.isLt; have hN : cfg1.N = 128 := N_1; omega⟩ j)
  (hC : ∀ t : Fin cfg1.N, t.val % 4 = 3 → (O t.val t.isLt).1 = k1_pay3 (F := Ideal) (grid1.coords t) (O t.val t.isLt).2 (iblk1 V c 1 t) (iblk1 V c 2 t))
  (lab : Fin 512 → BitVec 32)
  (hcol : ∀ q : Fin 512, V c main_v1 (ix2 q 0) = lab q) (hrow : ∀ j : Fin 512, V c main_v2 (ix2 0 j) = lab j)
  (prec_row : ∀ (i : grid1.Coords) (acc : Vec Ideal S16x512 .f32) (x32 : Vec Ideal S16x1 .i32) (x34 : Vec Ideal S1x512 .i32)
      (lab : Fin 512 → BitVec 32) (D : Fin 512 → Fin 512 → EReal) (r : Fin 16) (q : Fin 512)
      (hq : q.val = (i 0).val * 16 + r.val) (hacc : ∀ j : Fin 512, acc (ix2 r j) = Cert.SoftRank.rank D q j)
      (h32 : x32 (ix2 r 0) = lab q) (h34 : ∀ j : Fin 512, x34 (ix2 0 j) = lab j),
      k1_pay3 (F := Ideal) i acc x32 x34 (ix2 r 0) = Cert.SoftRank.prec lab D q)

include hEnd hC hcol hrow prec_row in
/-- THE OUTPUT BLOCK AT A ROW'S END: the soft precision of each of the block's 16 queries. -/
theorem out_at_end (t : Fin cfg1.N) (h3 : t.val % 4 = 3) (r : Fin 16) :
    (O t.val t.isLt).1 (ix2 r 0)
      = Cert.SoftRank.prec lab (distOf V c) ⟨t.val / 4 * 16 + r.val, by have := t.isLt; have hN : cfg1.N = 128 := N_1; omega⟩ := by
  obtain ⟨-, -, -, -, -, -, -, -, ec, -⟩ := rank_index t
  rw [hC t h3]
  exact prec_row (grid1.coords t) _ _ _ lab (distOf V c) r _ (by show t.val / 4 * 16 + r.val = ((grid1.coords t) 0).val * 16 + r.val; rw [ec])
    (fun j => hEnd t h3 r j) ((blk_labcol V c t r).trans (hcol _)) (fun j => (blk_labrow V c t j).trans (hrow j))

variable (dat : Dat τ (Elt Ideal) Unit ℕ (UR sig nD τ) ℕ cfg1 c) (hafter : ∀ t : Fin cfg1.N, dat.after 3 t = (O t.val t.isLt).1)

include hEnd hC hcol hrow prec_row hafter in
/-- What a row's last point writes back is its block of the precision vector. -/
theorem rank_flushed (t : Fin cfg1.N) (hf : (cfg1.win 3).flush t = true) :
    dat.flushed 3 t = ((cfg1.win 3).blk t).view.read (Elt Ideal) (precArr V lab c) := by
  have h3 : t.val % 4 = 3 := (flush1_3 t).mp hf
  obtain ⟨-, -, -, -, -, -, e6, e7, -⟩ := rank_index t
  show (cfg1.win 3).cut (grid1.coords t) (dat.after 3 t) = _
  rw [hafter]
  funext y
  obtain ⟨r, z, rfl⟩ : ∃ (r : Fin 16) (z : Fin 1), y = ix2 r z := ⟨y 0, y 1, eq_ix2 y⟩
  obtain rfl : z = 0 := Subsingleton.elim _ _
  show (O t.val t.isLt).1 (ix2 r 0) = precArr V lab c (((cfg1.win 3).blk t).view.emb (ix2 r 0))
  rw [out_at_end V c O hEnd hC lab hcol hrow prec_row t h3 r]
  unfold precArr
  refine congrArg (Cert.SoftRank.prec lab (distOf V c)) (Fin.ext ?_)
  show t.val / 4 * 16 + r.val = win1_3.index t (0 : Fin 2) * 16 + 1 * r.val
  omega

/-- Every entry of the precision vector is in the block some row's last point writes back. -/
theorem rank_cover (i : S512x1.Idx) :
    ∃ t : Fin cfg1.N, (cfg1.win 3).flush t = true ∧ i ∈ ((cfg1.win 3).blk t).view.set := by
  have hN : cfg1.N = 128 := N_1
  have h0 : (i 0).val < 512 := (i 0).isLt
  have h1 : (i 1).val < 1 := (i 1).isLt
  let t : Fin cfg1.N := ⟨(i 0).val / 16 * 4 + 3, by omega⟩
  obtain ⟨-, -, -, -, -, -, e6, e7, -⟩ := rank_index t
  refine ⟨t, (flush1_3 t).mpr (by show ((i 0).val / 16 * 4 + 3) % 4 = 3; omega), ?_⟩
  show i ∈ ((View.whole main_v3).slice (win1_3.rect t)).set
  rw [View.set_slice_whole, Rect.mem_set_unit]
  have ht : t.val = (i 0).val / 16 * 4 + 3 := rfl
  intro a
  match a with
  | ⟨0, _⟩ => show win1_3.index t (0 : Fin 2) * 16 ≤ (i 0).val ∧ (i 0).val < win1_3.index t (0 : Fin 2) * 16 + 16; omega
  | ⟨1, _⟩ => show win1_3.index t (1 : Fin 2) * 1 ≤ (i 1).val ∧ (i 1).val < win1_3.index t (1 : Fin 2) * 1 + 1; omega

include hEnd hC hcol hrow prec_row hafter in
/-- After the rank launch its output array holds the precision vector of the arrays it found. -/
theorem rank_array : dat.arrAt 3 cfg1.N = precArr V lab c :=
  dat.arrAt_eq_of_cover 3 (precArr V lab c) (fun t hf => rank_flushed V c O hEnd hC lab hcol hrow prec_row dat hafter t hf) rank_cover

end WithRuns2

/-- THE RANK LAUNCH'S OUTPUT ARRAY, for arrays the launch finds whose label column and label row are both `lab`:
    the precision vector of the distance matrix it finds. -/
theorem rank_array_found (c : Dev nD) (lab : Fin 512 → BitVec 32)
    (hcol : ∀ q : Fin 512, V c main_v1 (ix2 q 0) = lab q) (hrow : ∀ j : Fin 512, V c main_v2 (ix2 0 j) = lab j) :
    (dat1 (F := Ideal) V c).arrAt 3 cfg1.N = precArr V lab c :=
  rank_array V c (outsAt1 V c)
    (fun t h3 r j => acc_at_end V c (outsAt1 V c) (fun t h => scratch_A V c t h) (fun t h => scratch_BC V c t h)
      (fun x s0 s1 s2 s3 h0 h1 h2 h3 r j => acc_rows x s0 s1 s2 s3 h0 h1 h2 h3 r j) t h3 r j)
    (fun t h => out_C V c t h) lab hcol hrow
    (fun i acc x32 x34 lab D r q hq hacc h32 h34 => prec_row i acc x32 x34 lab D r q hq hacc h32 h34)
    (dat1 V c) (after1_3 V c)

end Cert.KernelIdeal.Hand

end
-- ==== Proof.HostStretches.lean ====
/-
  What the kernel program's two stretches of host operations compute, read at an index: the label vector laid out
  as a column and as a row, and one minus the mean of the per-query precisions.
-/
import proofs.«172753_j3066606649434_2_alg».proof.Proof.Spec
import proofs.«172753_j3066606649434_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo ValueIdx

/-- The first stretch leaves the distance matrix as it found it. -/
theorem mid_v0 (W : Valuation τ sig (Elt Ideal)) :
    StableHlo.after hostOps1 W (Proc.devRef .tc main_v0) = W (Proc.devRef .tc main_v0) :=
  StableHlo.after_of_writes_sub hostOps1 _ hostOps1_writes (by decide)

/-- The labels as a column: entry `(q, 0)` is label `q`. -/
theorem mid_v1 (W : Valuation τ sig (Elt Ideal)) (q : Fin 512) :
    (StableHlo.after hostOps1 W (Proc.devRef .tc main_v1) : S512x1.Idx → BitVec 32) (ix2 q 0)
      = (W (Proc.devRef .tc main_arg1) : S512.Idx → BitVec 32) (ix1 q) := by
  after_results
  show shapeCast S512x1 (W (Proc.devRef .tc main_arg1) : S512.Idx → BitVec 32) shapeCasts_S512_S512x1 (ix2 q 0) = _
  refine shapeCast_apply _ _ _ _ ?_
  show (S512.rowMajor (ix1 q)).val = (S512x1.rowMajor (ix2 q 0)).val
  rw [Shape.rowMajor_val_one, Shape.rowMajor_val_two]
  show q.val = q.val * 1 + 0
  omega

/-- The labels as a row: entry `(0, j)` is label `j`. -/
theorem mid_v2 (W : Valuation τ sig (Elt Ideal)) (j : Fin 512) :
    (StableHlo.after hostOps1 W (Proc.devRef .tc main_v2) : S1x512.Idx → BitVec 32) (ix2 0 j)
      = (W (Proc.devRef .tc main_arg1) : S512.Idx → BitVec 32) (ix1 j) := by
  after_results
  show shapeCast S1x512 (W (Proc.devRef .tc main_arg1) : S512.Idx → BitVec 32) shapeCasts_S512_S1x512 (ix2 0 j) = _
  refine shapeCast_apply _ _ _ _ ?_
  show (S512.rowMajor (ix1 j)).val = (S1x512.rowMajor (ix2 0 j)).val
  rw [Shape.rowMajor_val_one, Shape.rowMajor_val_two]
  show j.val = 0 * 512 + j.val
  omega

/-- The sum of a one-column array over both its axes, from zero, is the sum of the column. -/
theorem sum_column (y : S512x1.Idx → EReal) (i : S_.Idx) :
    Host.reduceAdd (F := Ideal) (φ := .f32) y (constant S_ .f32 0x00000000#32) reducesTo_S512x1_S_d0_1 h_S_ i
      = ∑ q : Fin 512, y (ix2 q 0) := by
  simp only [Host.reduceAdd, Ideal.hostReduceAdd_def]
  rw [Ideal.hostReduceAdd_total reducesTo_S512x1_S_d0_1 (fun b => b.elim0) y _ i]
  show Ideal.ofBits .f32 0x00000000#32 + _ = _
  rw [Ideal.ofBits_zero_f32, zero_add, sum_idx2]
  refine Finset.sum_congr rfl fun q _ => ?_
  rw [Fin.sum_univ_one]

/-- The second stretch: one minus the mean of the column the rank kernel wrote. -/
theorem tail_v6 (W : Valuation τ sig (Elt Ideal)) (i : S_.Idx) :
    (StableHlo.after hostOps2 W (Proc.devRef .tc main_v6) : S_.Idx → EReal) i
      = Cert.SoftRank.w1 - Ideal.div (∑ q : Fin 512, (W (Proc.devRef .tc main_v3) : S512x1.Idx → EReal) (ix2 q 0)) Cert.SoftRank.w512 := by
  after_results
  exact congrArg (fun s => Cert.SoftRank.w1 - Ideal.div s Cert.SoftRank.w512)
    (sum_column (W (Proc.devRef .tc main_v3) : S512x1.Idx → EReal) i)

end Cert.KernelIdeal.Hand

end
-- ==== Proof.KernelValue.lean ====
/-
  The idealized kernel program's result. Reading the fold of the launch memory through @main's four segments:
  the distance launch leaves the distance matrix of the embedding argument; the reshapes lay the label argument out
  as a column and as a row; the rank launch leaves the soft precision of every query over that matrix and those
  labels; the last stretch takes one minus the mean. That is the specification's `loss` of the two arguments.
-/
import proofs.«172753_j3066606649434_2_alg».proof.Proof.TwoLaunches
import proofs.«172753_j3066606649434_2_alg».proof.Proof.DistValue
import proofs.«172753_j3066606649434_2_alg».proof.Proof.RankValue
import proofs.«172753_j3066606649434_2_alg».proof.Proof.HostStretches

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

variable (m : (ℓ : Loc nD τ sig) → Buf (Elt Ideal) ℓ) (ρ : Dev nD → PrngReg)

/-- The embedding argument by row and entry, and the label argument by row. -/
def embOf (c : Dev nD) : Fin 512 → Fin 384 → EReal := fun q k => (m ((c : Thread nD τ).loc main_arg0) : S512x384.Idx → EReal) (ix2 q k)
def labOf (c : Dev nD) : Fin 512 → BitVec 32 := fun q => (m ((c : Thread nD τ).loc main_arg1) : S512.Idx → BitVec 32) (ix1 q)

/-- The label argument is still as launched when the reshapes read it. -/
theorem labels_kept (c : Dev nD) : B1 m ρ c (Proc.devRef .tc main_arg1) = m ((c : Thread nD τ).loc main_arg1) :=
  B1_other m ρ c main_arg1 (by decide)

/-- The rank launch finds the labels as a column … -/
theorem labels_col (c : Dev nD) (q : Fin 512) : U2 m ρ c main_v1 (ix2 q 0) = labOf m c q :=
  (mid_v1 (B1 m ρ c) q).trans (congrFun (labels_kept m ρ c) (ix1 q))
/-- … and as a row. -/
theorem labels_row (c : Dev nD) (j : Fin 512) : U2 m ρ c main_v2 (ix2 0 j) = labOf m c j :=
  (mid_v2 (B1 m ρ c) j).trans (congrFun (labels_kept m ρ c) (ix1 j))

/-- The rank launch finds the distance matrix of the embedding argument. -/
theorem dist_found (c : Dev nD) : distOf (U2 m ρ) c = Cert.SoftRank.dist (embOf m c) := by
  funext q j
  show (B2 m ρ c (Proc.devRef .tc main_v0) : S512x512.Idx → EReal) (ix2 q j) = _
  rw [show B2 m ρ c (Proc.devRef .tc main_v0) = B1 m ρ c (Proc.devRef .tc main_v0) from mid_v0 (B1 m ρ c)]
  rw [show B1 m ρ c (Proc.devRef .tc main_v0) = (dat0 (U0 m ρ) c).arrAt 1 cfg0.N from B1_arr m ρ c 1]
  rw [dist_array (U0 m ρ) c]
  rfl

/-- THE RESULT: the scalar the idealized kernel program ends with is the specification's loss of its arguments. -/
theorem kernel_value (c : Dev nD) (i : S_.Idx) :
    (B4 m ρ c (Proc.devRef .tc main_v6) : S_.Idx → EReal) i = Cert.SoftRank.loss (embOf m c) (labOf m c) := by
  refine (tail_v6 (B3 m ρ c) i).trans ?_
  have hv3 : (B3 m ρ c (Proc.devRef .tc main_v3) : S512x1.Idx → EReal) = precArr (U2 m ρ) (labOf m c) c :=
    (B3_arr m ρ c 3).trans (rank_array_found (U2 m ρ) c (labOf m c) (labels_col m ρ c) (labels_row m ρ c))
  rw [hv3]
  unfold Cert.SoftRank.loss precArr
  rw [dist_found m ρ c]

end Cert.KernelIdeal.Hand

end
-- ==== Proof.RefValueA.lean ====
/-
  The reference program's value, stage by stage: the squared norms, the Gram matrix and the distance matrix
  read at literal indices are the specification's `sqn`, `gram` and `dist`.
-/
import proofs.«172753_j3066606649434_2_alg».proof.Proof.Spec
import proofs.«172753_j3066606649434_2_alg».proof.Proof.Gen.ReferenceIdeal.Read

noncomputable section

namespace Cert.ReferenceIdeal.RefValue

open Cert.ReferenceIdeal Cert.ReferenceIdeal.Gen Cert.ReferenceIdeal.Read Idealize.ShloMosaic ValueIdx
open Cert.SoftRank

/-- The embedding matrix of the specification, read off the first argument. -/
abbrev emb (x0 : (⟨S512x384, .f32⟩ : BufTy).Contents (Elt Ideal)) : Fin 512 → Fin 384 → EReal :=
  fun q k => x0 (ix2 q k)

/-- The labels of the specification, read off the second argument. -/
abbrev lbl (x1 : (⟨S512, .i32⟩ : BufTy).Contents (Elt Ideal)) : Fin 512 → BitVec 32 :=
  fun q => x1 (ix1 q)

variable (x0 : (⟨S512x384, .f32⟩ : BufTy).Contents (Elt Ideal)) (x1 : (⟨S512, .i32⟩ : BufTy).Contents (Elt Ideal))

/-- The row sums of squares are the squared norms. -/
theorem v1_eq (q : Fin 512) : val_main_v1 (F := Ideal) x0 (ix1 q) = sqn (emb x0) q := by
  rw [val_main_v1_apply, val_main_cst_apply]
  simp only [val_main_v0_apply, Ideal.ofBits_def, Ideal.mulf_def]
  rw [Ideal.ofBits_zero_f32, zero_add]
  unfold sqn
  refine Finset.sum_congr rfl fun k _ => ?_
  have e : idx_main_v1 (ix1 q) k = ix2 q k :=
    funext fun a => Fin.ext (by match a with | ⟨0, _⟩ => rfl | ⟨1, _⟩ => rfl)
  rw [e]

/-- The product with the transpose is the Gram matrix. -/
theorem v8_eq (q j : Fin 512) : val_main_v8 (F := Ideal) x0 (ix2 q j) = gram (emb x0) q j := by
  rw [val_main_v8_apply]
  unfold gram
  refine Finset.sum_congr rfl fun k _ => ?_
  rw [val_main_v7_apply]
  have e1 : lidx_main_v8 (ix2 q j) k = ix2 q k :=
    funext fun a => Fin.ext (by match a with | ⟨0, _⟩ => rfl | ⟨1, _⟩ => rfl)
  have e2 : idx_main_v7 (ridx_main_v8 (ix2 q j) k) = ix2 j k :=
    funext fun a => Fin.ext (by match a with | ⟨0, _⟩ => rfl | ⟨1, _⟩ => rfl)
  rw [e1, e2]

/-- Below the diagonal replacement: the root of the clamped squared distance. -/
theorem v14_eq (q j : Fin 512) :
    val_main_v14 (F := Ideal) x0 (ix2 q j)
      = Ideal.sqrt (max (sqn (emb x0) q + sqn (emb x0) j - w2 * gram (emb x0) q j) wEps) := by
  have e4 : idx_main_v2 (idx_main_v4 (ix2 q j)) = ix1 q :=
    funext fun a => Fin.ext (by match a with | ⟨0, _⟩ => rfl)
  have e5 : idx_main_v3 (idx_main_v5 (ix2 q j)) = ix1 j :=
    funext fun a => Fin.ext (by match a with | ⟨0, _⟩ => rfl)
  rw [val_main_v14_apply, val_main_v13_apply, val_main_v11_apply, val_main_v6_apply, val_main_v10_apply,
    val_main_v4_apply, val_main_v2_apply, val_main_v5_apply, val_main_v3_apply, val_main_v9_apply,
    val_main_cst_0_apply, val_main_v12_apply, val_main_cst_1_apply, e4, e5, v1_eq, v1_eq, v8_eq]
  rfl

/-- Two row numbers below 512 are equal as 32-bit words exactly when they are equal. -/
theorem word_eq_iff (q j : Fin 512) : BitVec.ofNat 32 q.val = BitVec.ofNat 32 j.val ↔ q = j := by
  constructor
  · intro h
    have h' := congrArg BitVec.toNat h
    rw [BitVec.toNat_ofNat, BitVec.toNat_ofNat] at h'
    have hq := q.isLt
    have hj := j.isLt
    exact Fin.ext (by omega)
  · intro h; rw [h]

/-- The diagonal test of the two iotas, as a bit. -/
theorem diag_bit (q j : Fin 512) :
    val_main_v19 (F := Ideal) (ix2 q j) = if q = j then 1#1 else 0#1 := by
  rw [val_main_v19_apply, val_main_v18_apply, val_main_v15_apply, val_main_v16_apply, val_main_v17_apply,
    val_main_c_apply]
  show BitVec.ofBool (BitVec.ofNat 32 q.val + 0#32 == BitVec.ofNat 32 j.val) = _
  rw [BitVec.add_zero]
  by_cases h : q = j
  · rw [if_pos h, h, beq_self_eq_true]; rfl
  · rw [if_neg h]
    have : ¬ BitVec.ofNat 32 q.val = BitVec.ofNat 32 j.val := fun hh => h ((word_eq_iff q j).mp hh)
    rw [beq_false_of_ne this]; rfl

/-- The distance matrix, with the diagonal replaced. -/
theorem v27_eq (q j : Fin 512) : val_main_v27 (F := Ideal) x0 (ix2 q j) = Cert.SoftRank.dist (emb x0) q j := by
  rw [val_main_v27_apply, diag_bit, val_main_call0_v1_apply, val_main_call0_v0_apply, val_main_cst_2_apply,
    v14_eq]
  unfold Cert.SoftRank.dist
  by_cases h : q = j
  · rw [if_pos h, if_pos h]; exact select_one _ _
  · rw [if_neg h, if_neg h]; exact select_zero _ _

end Cert.ReferenceIdeal.RefValue

end
-- ==== Proof.RefValueB.lean ====
/-
  The reference program's value, continued: the cube of logistic steps summed over its last axis is the
  specification's soft rank, and the converted label test is its zero-or-one indicator.
-/
import proofs.«172753_j3066606649434_2_alg».proof.Proof.RefValueA

noncomputable section

namespace Cert.ReferenceIdeal.RefValue

open Cert.ReferenceIdeal Cert.ReferenceIdeal.Gen Cert.ReferenceIdeal.Read Idealize.ShloMosaic ValueIdx
open Cert.SoftRank

variable (x0 : (⟨S512x384, .f32⟩ : BufTy).Contents (Elt Ideal)) (x1 : (⟨S512, .i32⟩ : BufTy).Contents (Elt Ideal))

/-- One entry of the cube: the logistic step of the scaled difference of two distances of one query. -/
theorem v40_eq (q j m : Fin 512) :
    val_main_v40 (F := Ideal) x0 (ix3 q j m)
      = sigE wT (Cert.SoftRank.dist (emb x0) q j - Cert.SoftRank.dist (emb x0) q m) := by
  have e30 : idx_main_v28 (idx_main_v30 (ix3 q j m)) = ix2 q j :=
    funext fun a => Fin.ext (by match a with | ⟨0, _⟩ => rfl | ⟨1, _⟩ => rfl)
  have e31 : idx_main_v29 (idx_main_v31 (ix3 q j m)) = ix2 q m :=
    funext fun a => Fin.ext (by match a with | ⟨0, _⟩ => rfl | ⟨1, _⟩ => rfl)
  rw [val_main_v40_apply, val_main_v39_apply, val_main_cst_5_apply, val_main_v38_apply, val_main_v37_apply,
    val_main_cst_4_apply, val_main_v36_apply, val_main_v35_apply, val_main_v34_apply, val_main_v33_apply,
    val_main_cst_3_apply, val_main_v32_apply, val_main_v30_apply, val_main_v28_apply, val_main_v31_apply,
    val_main_v29_apply, e30, e31, v27_eq, v27_eq]
  rfl

/-- The sum of the cube over its last axis is the soft rank. -/
theorem v41_eq (q j : Fin 512) :
    val_main_v41 (F := Ideal) x0 (ix2 q j) = rank (Cert.SoftRank.dist (emb x0)) q j := by
  rw [val_main_v41_apply, val_main_cst_6_apply]
  simp only [Ideal.ofBits_def]
  rw [Ideal.ofBits_zero_f32, zero_add]
  unfold rank
  refine Finset.sum_congr rfl fun m _ => ?_
  have e : idx_main_v41 (ix2 q j) m = ix3 q j m :=
    funext fun a => Fin.ext (by match a with | ⟨0, _⟩ => rfl | ⟨1, _⟩ => rfl | ⟨2, _⟩ => rfl)
  rw [e, v40_eq]

/-- The label test, and not the diagonal, as a bit. -/
theorem v26_bit (q j : Fin 512) :
    val_main_v26 (F := Ideal) x1 (ix2 q j) = if lbl x1 q = lbl x1 j ∧ q ≠ j then 1#1 else 0#1 := by
  have e22 : idx_main_v20 (idx_main_v22 (ix2 q j)) = ix1 q :=
    funext fun a => Fin.ext (by match a with | ⟨0, _⟩ => rfl)
  have e23 : idx_main_v21 (idx_main_v23 (ix2 q j)) = ix1 j :=
    funext fun a => Fin.ext (by match a with | ⟨0, _⟩ => rfl)
  rw [val_main_v26_apply, val_main_v24_apply, val_main_v22_apply, val_main_v20_apply, val_main_v23_apply,
    val_main_v21_apply, val_main_v25_apply, diag_bit, e22, e23]
  show BitVec.ofBool (lbl x1 q == lbl x1 j) &&& ~~~(if q = j then 1#1 else 0#1) = _
  by_cases hl : lbl x1 q = lbl x1 j
  · by_cases hq : q = j
    · have hc : ¬(lbl x1 q = lbl x1 j ∧ q ≠ j) := fun h => h.2 hq
      rw [if_pos hq, if_neg hc, hl, beq_self_eq_true]; decide
    · have hc : lbl x1 q = lbl x1 j ∧ q ≠ j := ⟨hl, hq⟩
      rw [if_neg hq, if_pos hc, hl, beq_self_eq_true]; decide
  · have hc : ¬(lbl x1 q = lbl x1 j ∧ q ≠ j) := fun h => hl h.1
    rw [if_neg hc, beq_false_of_ne hl]
    by_cases hq : q = j
    · rw [if_pos hq]; decide
    · rw [if_neg hq]; decide

/-- The indicator, converted to a float. -/
theorem v42_eq (q j : Fin 512) : val_main_v42 (F := Ideal) x1 (ix2 q j) = gt (lbl x1) q j := by
  rw [val_main_v42_apply, v26_bit]
  unfold gt
  by_cases h : lbl x1 q = lbl x1 j ∧ q ≠ j
  · rw [if_pos h, if_pos h]
    show (((1#1 : BitVec 1).toNat : ℝ) : EReal) = 1
    simp
  · rw [if_neg h, if_neg h]
    show (((0#1 : BitVec 1).toNat : ℝ) : EReal) = 0
    simp

end Cert.ReferenceIdeal.RefValue

end
-- ==== Proof.RefValue.lean ====
/-
  The reference program's value, concluded: the masked sums over the gallery give the soft precision of each
  query, and one minus their mean is the specification's loss.
-/
import proofs.«172753_j3066606649434_2_alg».proof.Proof.RefValueB

noncomputable section

namespace Cert.ReferenceIdeal.RefValue

open Cert.ReferenceIdeal Cert.ReferenceIdeal.Gen Cert.ReferenceIdeal.Read Idealize.ShloMosaic ValueIdx
open Cert.SoftRank

variable (x0 : (⟨S512x384, .f32⟩ : BufTy).Contents (Elt Ideal)) (x1 : (⟨S512, .i32⟩ : BufTy).Contents (Elt Ideal))

/-- The gate of one gallery item: the logistic step of five minus its soft rank, at temperature one. -/
theorem v52_eq (q j : Fin 512) :
    val_main_v52 (F := Ideal) x0 (ix2 q j) = sigE w1 (w5 - rank (Cert.SoftRank.dist (emb x0)) q j) := by
  rw [val_main_v52_apply, val_main_v51_apply, val_main_cst_10_apply, val_main_v50_apply, val_main_v49_apply,
    val_main_cst_9_apply, val_main_v48_apply, val_main_v47_apply, val_main_v46_apply, val_main_v45_apply,
    val_main_cst_8_apply, val_main_v44_apply, val_main_v43_apply, val_main_cst_7_apply, v41_eq]
  rfl

/-- The numerator of the precision: the gates of the same-label items, summed. -/
theorem v54_eq (q : Fin 512) :
    val_main_v54 (F := Ideal) x0 x1 (ix1 q)
      = ∑ j : Fin 512, sigE w1 (w5 - rank (Cert.SoftRank.dist (emb x0)) q j) * gt (lbl x1) q j := by
  rw [val_main_v54_apply, val_main_cst_11_apply]
  simp only [Ideal.ofBits_def]
  rw [Ideal.ofBits_zero_f32, zero_add]
  refine Finset.sum_congr rfl fun j _ => ?_
  have e : idx_main_v54 (ix1 q) j = ix2 q j :=
    funext fun a => Fin.ext (by match a with | ⟨0, _⟩ => rfl | ⟨1, _⟩ => rfl)
  rw [e, val_main_v53_apply, v52_eq, v42_eq]
  rfl

/-- The number of same-label items. -/
theorem v55_eq (q : Fin 512) :
    val_main_v55 (F := Ideal) x1 (ix1 q) = ∑ j : Fin 512, gt (lbl x1) q j := by
  rw [val_main_v55_apply, val_main_cst_12_apply]
  simp only [Ideal.ofBits_def]
  rw [Ideal.ofBits_zero_f32, zero_add]
  refine Finset.sum_congr rfl fun j _ => ?_
  have e : idx_main_v55 (ix1 q) j = ix2 q j :=
    funext fun a => Fin.ext (by match a with | ⟨0, _⟩ => rfl | ⟨1, _⟩ => rfl)
  rw [e, v42_eq]

/-- The soft precision at five of a query. -/
theorem v58_eq (q : Fin 512) :
    val_main_v58 (F := Ideal) x0 x1 (ix1 q) = prec (lbl x1) (Cert.SoftRank.dist (emb x0)) q := by
  rw [val_main_v58_apply, val_main_v57_apply, val_main_v56_apply, val_main_cst_13_apply, v54_eq, v55_eq]
  rfl

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result is the loss of the specification. -/
theorem ref_is_loss (x0 : (⟨S512x384, .f32⟩ : BufTy).Contents (Elt Ideal)) (x1 : (⟨S512, .i32⟩ : BufTy).Contents (Elt Ideal)) (i : S_.Idx) :
    Cert.ReferenceIdeal.Read.val_main_v61 (F := Ideal) x0 x1 i
      = Cert.SoftRank.loss (fun q k => x0 (ValueIdx.ix2 q k)) (fun q => x1 (ValueIdx.ix1 q)) := by
  rw [val_main_v61_apply, val_main_cst_16_apply, val_main_v60_apply, val_main_cst_15_apply, val_main_v59_apply,
    val_main_cst_14_apply]
  simp only [Ideal.ofBits_def]
  rw [Ideal.ofBits_zero_f32, zero_add, sum_idx1]
  simp only [v58_eq]
  rfl

end Cert.ReferenceIdeal.RefValue

end
-- ==== Proof.lean ====
/-
  The certificate's five claims.

  The programs: a Pallas kernel pair — a launch computing the 512 × 512 matrix of pairwise Euclidean distances of an
  embedding matrix (diagonal set to a large constant), then a launch computing, for every query row, a soft rank of
  each gallery item (a logistic step of distance differences, summed over the gallery in four tiles into a carried
  accumulator) and from it a soft precision at five over the items with the query's label — followed on the host by
  one minus the mean; and a plain jnp reference of the same loss.

  * The three frames: each program runs to the end and leaves its two arguments as launched. For the kernel
    programs this is read off the run over @main's four segments (TwoLaunches, at each instance); the reference's
    is its generated run with the result dropped.
  * `preserves`: the idealization names one constant of the kernel, the scale `50.0` inside the hyperbolic tangent,
    as the rational `(1/2) / T` where `T = 5368709 / 2²⁹` is the temperature word the reference divides by.
  * `algebraic`: at the ideal instance both programs end with the specification's `loss` of the arguments
    (KernelValue for the kernel program, RefValue for the reference). The one law joining them is that
    `½ · tanh (x / (2 T)) + ½ = 1 / (1 + exp (−x / T))` on every extended real, together with regrouping a sum over
    512 gallery items into four tiles; neither needs the inputs to be finite, so the precondition is not used.
-/
import proofs.«172753_j3066606649434_2_alg».proof.Defs
import proofs.«172753_j3066606649434_2_alg».proof.Proof.Gen.Kernel
import proofs.«172753_j3066606649434_2_alg».proof.Proof.Gen.KernelIdeal
import proofs.«172753_j3066606649434_2_alg».proof.Proof.Gen.ReferenceIdeal
import proofs.«172753_j3066606649434_2_alg».proof.Proof.Gen.Pre_finite_inputs
import proofs.«172753_j3066606649434_2_alg».proof.Proof.Gen.ReferenceIdeal.Run
import proofs.«172753_j3066606649434_2_alg».proof.Proof.Gen.ReferenceIdeal.Read
import proofs.«172753_j3066606649434_2_alg».proof.Proof.KTwoLaunches
import proofs.«172753_j3066606649434_2_alg».proof.Proof.TwoLaunches
import proofs.«172753_j3066606649434_2_alg».proof.Proof.KernelValue
import proofs.«172753_j3066606649434_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Hand.frame (F := Bits) m ρ

/-- So does the idealized one. -/
theorem frame_kernelIdeal : Cert.frame_KernelIdeal := fun m ρ _ => Cert.KernelIdeal.Hand.frame (F := Ideal) m ρ

/-- The reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one named constant: the scale inside the hyperbolic tangent is half the reciprocal of the temperature. -/
theorem preserves : Cert.preserves_Kernel_KernelIdeal :=
  IdealRules.named_const.statement Cert.KernelIdeal.κ "half_over_t2" .f32 0x42480000#32 ((268435456 / 5368709 : ℝ) : EReal) rfl

/-- Both idealized programs end with the specification's loss of their (agreeing) arguments. -/
theorem algebraic : Cert.algebraic_KernelIdeal_ReferenceIdeal := by
  intro m ρ m' ρ' _ hagree
  refine ⟨fun c => (fun _ => Cert.SoftRank.loss (Cert.KernelIdeal.Hand.embOf m c) (Cert.KernelIdeal.Hand.labOf m c)), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v6 (by decide))).trans
        (funext fun i => Cert.KernelIdeal.Hand.kernel_value m ρ c i)
    · exact (h c _ (Cert.KernelIdeal.Hand.mem_uc Cert.KernelIdeal.main_arg0 (by decide))).trans (Cert.KernelIdeal.Hand.B4_arg0 m ρ c)
    · exact (h c _ (Cert.KernelIdeal.Hand.mem_uc Cert.KernelIdeal.main_arg1 (by decide))).trans (Cert.KernelIdeal.Hand.B4_arg1 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v61_eq]
    funext i
    rw [Cert.ReferenceIdeal.RefValue.ref_is_loss, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
